-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x1600000 : Shape := ⟨2, ![2, 1600000]⟩
abbrev S1600000x3 : Shape := ⟨2, ![1600000, 3]⟩
abbrev S6x64 : Shape := ⟨2, ![6, 64]⟩
abbrev S64 : Shape := ⟨1, ![64]⟩
abbrev S67x64 : Shape := ⟨2, ![67, 64]⟩
abbrev S64x1 : Shape := ⟨2, ![64, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S6x64 : S_.BroadcastsInDim S6x64 (![] : Fin 0 → Fin S6x64.rank)
  reducesTo_S6x64_S_d0_1 : S6x64.ReducesTo [0, 1] S_
  bcast_S_S64 : S_.BroadcastsInDim S64 (![] : Fin 0 → Fin S64.rank)
  reducesTo_S64_S_d0 : S64.ReducesTo [0] S_
  bcast_S_S67x64 : S_.BroadcastsInDim S67x64 (![] : Fin 0 → Fin S67x64.rank)
  reducesTo_S67x64_S_d0_1 : S67x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S67x64 .f32) (main_arg6 : FVec F S64 .f32) (main_arg7 : FVec F S64x1 .f32) (main_arg8 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S67x64 .f32 := Host.absf main_arg5
  let main_cst_6 : FVec F S_ .f32 := constant S_ .f32 0x7F800000#32
  let main_v20 : FVec F S67x64 .f32 := broadcastInDim S67x64 ![] bcast_S_S67x64 main_cst_6
  let main_v21 : IVec S67x64 1 := cmpf .olt main_v19 main_v20
  let main_c_7 : IVec S_ 1 := constantI S_ 1 1#1
  let main_v22 : IVec S_ 1 := (fun x v => Host.reduce IntOp.andi x v reducesTo_S67x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg7
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg8 main_v33

def fn {F : FTy → Type} [FloatOps F] (main_arg0 : FVec F S100000x3 .f32) (main_arg1 : IVec S2x1600000 32) (main_arg2 : FVec F S1600000x3 .f32) (main_arg3 : FVec F S6x64 .f32) (main_arg4 : FVec F S64 .f32) (main_arg5 : FVec F S67x64 .f32) (main_arg6 : FVec F S64 .f32) (main_arg7 : FVec F S64x1 .f32) (main_arg8 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S1600000x3 .f32 := Host.absf main_arg2
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S6x64 .f32 := Host.absf main_arg3
  let main_cst_2 : FVec F S_ .f32 := constant S_ .f32 0x7F800000#32
  let main_v10 : FVec F S6x64 .f32 := broadcastInDim S6x64 ![] bcast_S_S6x64 main_cst_2
  let main_v11 : IVec S6x64 1 := cmpf .olt main_v9 main_v10
  let main_c_3 : IVec S_ 1 := constantI S_ 1 1#1
  let main_v12 : IVec S_ 1 := (fun x v => Host.reduce IntOp.andi x v reducesTo_S6x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x3 : Shape := ⟨2, ![100000, 3]⟩
abbrev S2x1600000 : Shape := ⟨2, ![2, 1600000]⟩
abbrev S1600000x3 : Shape := ⟨2, ![1600000, 3]⟩
abbrev S6x64 : Shape := ⟨2, ![6, 64]⟩
abbrev S64 : Shape := ⟨1, ![64]⟩
abbrev S67x64 : Shape := ⟨2, ![67, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S3x64 : Shape := ⟨2, ![3, 64]⟩
abbrev S1x64 : Shape := ⟨2, ![1, 64]⟩
abbrev S1600000x64 : Shape := ⟨2, ![1600000, 64]⟩
abbrev S6400x3 : Shape := ⟨2, ![6400, 3]⟩
abbrev S6400x64 : Shape := ⟨2, ![6400, 64]⟩
abbrev S100000x64 : Shape := ⟨2, ![100000, 64]⟩
abbrev S10000x64 : Shape := ⟨2, ![10000, 64]⟩
abbrev S64x64 : Shape := ⟨2, ![64, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 51
  | .vmem => 32
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S1600000x3, .f32⟩
  | .hbm, ⟨3, _⟩ => ⟨S6x64, .f32⟩
  | .hbm, ⟨4, _⟩ => ⟨S64, .f32⟩
  | .hbm, ⟨5, _⟩ => ⟨S67x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x3, .f32⟩
  | .hbm, ⟨22, _⟩ => ⟨S3x64, .f32⟩
  | .hbm, ⟨23, _⟩ => ⟨S3x64, .f32⟩
  | .hbm, ⟨24, _⟩ => ⟨S1x64, .f32⟩
  | .hbm, ⟨25, _⟩ => ⟨S1600000x64, .f32⟩
  | .hbm, ⟨26, _⟩ => ⟨S_, .f32⟩
  | .hbm, ⟨27, _⟩ => ⟨S100000x64, .f32⟩
  | .hbm, ⟨28, _⟩ => ⟨S1600000x1, .i32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S64x64, .f32⟩
  | .hbm, ⟨41, _⟩ => ⟨S3x64, .f32⟩
  | .hbm, ⟨42, _⟩ => ⟨S1x64, .f32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x64, .f32⟩
  | .hbm, ⟨49, _⟩ => ⟨S1x1, .f32⟩
  | .hbm, ⟨50, _⟩ => ⟨S100000x1, .f32⟩
  | .local _ .vmem, ⟨0, _⟩ => ⟨S6400x3, .f32⟩
  | .local _ .vmem, ⟨1, _⟩ => ⟨S6400x3, .f32⟩
  | .local _ .vmem, ⟨2, _⟩ => ⟨S6400x3, .f32⟩
  | .local _ .vmem, ⟨3, _⟩ => ⟨S6400x3, .f32⟩
  | .local _ .vmem, ⟨4, _⟩ => ⟨S3x64, .f32⟩
  | .local _ .vmem, ⟨5, _⟩ => ⟨S3x64, .f32⟩
  | .local _ .vmem, ⟨6, _⟩ => ⟨S1x64, .f32⟩
  | .local _ .vmem, ⟨7, _⟩ => ⟨S6400x64, .f32⟩
  | .local _ .vmem, ⟨8, _⟩ => ⟨S6400x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S6400x64, .f32⟩
  | .local _ .vmem, ⟨14, _⟩ => ⟨S6400x64, .f32⟩
  | .local _ .vmem, ⟨15, _⟩ => ⟨S6400x3, .f32⟩
  | .local _ .vmem, ⟨16, _⟩ => ⟨S6400x3, .f32⟩
  | .local _ .vmem, ⟨17, _⟩ => ⟨S64x64, .f32⟩
  | .local _ .vmem, ⟨18, _⟩ => ⟨S3x64, .f32⟩
  | .local _ .vmem, ⟨19, _⟩ => ⟨S1x64, .f32⟩
  | .local _ .vmem, ⟨20, _⟩ => ⟨S6400x64, .f32⟩
  | .local _ .vmem, ⟨21, _⟩ => ⟨S6400x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x1, .f32⟩
  | .local _ .vmem, ⟨29, _⟩ => ⟨S1x1, .f32⟩
  | .local _ .vmem, ⟨30, _⟩ => ⟨S10000x1, .f32⟩
  | .local _ .vmem, ⟨31, _⟩ => ⟨S10000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_1 : Ref sig .tc := ⟨.hbm, 31, rfl⟩
abbrev main_v19 : Ref sig .tc := ⟨.hbm, 32, rfl⟩
abbrev main_v20 : Ref sig .tc := ⟨.hbm, 33, rfl⟩
abbrev main_c_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S6400x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S6x64_S3x64_0_0 : S6x64.Slices ![0, 0] S3x64
  slices_S6x64_S3x64_3_0 : S6x64.Slices ![3, 0] S3x64
  shapeCasts_S64_S1x64 : S64.ShapeCasts S1x64
  inb_S6400x3_S6400x3_0_0 : ∀ a, (![0, 0] : Fin 2 → Nat) a + S6400x3.size a ≤ S6400x3.size a
  h_S6400x3 : 0 < S6400x3.numel
  shapeCasts_S6400x3_S6400x3 : S6400x3.ShapeCasts S6400x3
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S6400x64_S6400x64_0_0 : ∀ a, (![0, 0] : Fin 2 → Nat) a + S6400x64.size a ≤ S6400x64.size a
  h_S6400x64 : 0 < S6400x64.numel
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  slices_S67x64_S64x64_0_0 : S67x64.Slices ![0, 0] S64x64
  slices_S67x64_S3x64_64_0 : S67x64.Slices ![64, 0] S3x64
  shapeCasts_S6400x64_S6400x64 : S6400x64.ShapeCasts S6400x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  gather_S100000x3_S1600000x1_S1600000x3_1_0_n_n_0_1_13_wf : GatherDims.WF S100000x3 S1600000x1 S1600000x3 [1] [0] [] [0] [] 1 ![1, 3]
  dot_S6400x3_S3x64_S6400x64_1_0_0_1_n_n_wf : DotDims.WF S6400x3 S3x64 S6400x64 [1] [0] [0] [1] [] []
  scatter_S100000x64_S1600000x1_S1600000x64_1_0_0_1_wf : ScatterDims.WF S100000x64 S1600000x1 S1600000x64 [1] [0] [0] 1
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x3.size a ≤ S1600000x3.size a
  hwx0_0 : ∀ i : grid0.Coords, EltTy.bits .f32 = 32 ∨ (Rect.block (s := S1600000x3) S6400x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x3.size a ≤ S1600000x3.size a
  hwx0_1 : ∀ i : grid0.Coords, EltTy.bits .f32 = 32 ∨ (Rect.block (s := S1600000x3) S6400x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x64.size a ≤ S1600000x64.size a
  hwx0_5 : ∀ i : grid0.Coords, EltTy.bits .f32 = 32 ∨ (Rect.block (s := S1600000x64) S6400x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x64.size a ≤ S1600000x64.size a
  hwx2_0 : ∀ i : grid2.Coords, EltTy.bits .f32 = 32 ∨ (Rect.block (s := S1600000x64) S6400x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x3.size a ≤ S1600000x3.size a
  hwx2_1 : ∀ i : grid2.Coords, EltTy.bits .f32 = 32 ∨ (Rect.block (s := S1600000x3) S6400x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x64.size a ≤ S3x64.size a
  hwx2_3 : ∀ i : grid2.Coords, EltTy.bits .f32 = 32 ∨ (Rect.block (s := S3x64) S3x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S6400x64.size a ≤ S1600000x64.size a
  hwx2_5 : ∀ i : grid2.Coords, EltTy.bits .f32 = 32 ∨ (Rect.block (s := S1600000x64) S6400x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S6400x3_S3x64_S6400x64_1_0_0_1_n_n : DotDims S6400x3 S3x64 S6400x64 where
  lhsContracting := [1]
  rhsContracting := [0]
  lhsNonContracting := [0]
  rhsNonContracting := [1]
  lhsBatch := []
  rhsBatch := []
  wf := dot_S6400x3_S3x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_v10) S6400x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S6400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v25) S6400x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S6400x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v27) S3x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S6400x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v32) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S10000x64.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v33) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x1600000 : Shape := ⟨2, ![2, 1600000]⟩
abbrev S1600000x3 : Shape := ⟨2, ![1600000, 3]⟩
abbrev S6x64 : Shape := ⟨2, ![6, 64]⟩
abbrev S64 : Shape := ⟨1, ![64]⟩
abbrev S67x64 : Shape := ⟨2, ![67, 64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S1600000x64 : Shape := ⟨2, ![1600000, 64]⟩
abbrev S1x64 : Shape := ⟨2, ![1, 64]⟩
abbrev S100000x64 : Shape := ⟨2, ![100000, 64]⟩
abbrev S1600000x67 : Shape := ⟨2, ![1600000, 67]⟩
abbrev S100000x1 : Shape := ⟨2, ![100000, 1]⟩
abbrev S1x1 : Shape := ⟨2, ![1, 1]⟩

abbrev nBuf : Space → Nat
  | .hbm => 59
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S2x1600000, .i32⟩
  | .hbm, ⟨2, _⟩ => ⟨S1600000x3, .f32⟩
  | .hbm, ⟨3, _⟩ => ⟨S6x64, .f32⟩
  | .hbm, ⟨4, _⟩ => ⟨S64, .f32⟩
  | .hbm, ⟨5, _⟩ => ⟨S67x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x3, .f32⟩
  | .hbm, ⟨22, _⟩ => ⟨S1600000x6, .f32⟩
  | .hbm, ⟨23, _⟩ => ⟨S1600000x64, .f32⟩
  | .hbm, ⟨24, _⟩ => ⟨S1x64, .f32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S1600000x67, .f32⟩
  | .hbm, ⟨44, _⟩ => ⟨S1600000x64, .f32⟩
  | .hbm, ⟨45, _⟩ => ⟨S1x64, .f32⟩
  | .hbm, ⟨46, _⟩ => ⟨S1600000x64, .f32⟩
  | .hbm, ⟨47, _⟩ => ⟨S1600000x64, .f32⟩
  | .hbm, ⟨48, _⟩ => ⟨S_, .f32⟩
  | .hbm, ⟨49, _⟩ => ⟨S100000x64, .f32⟩
  | .hbm, ⟨50, _⟩ => ⟨S1600000x1, .i32⟩
  | .hbm, ⟨51, _⟩ => ⟨S100000x64, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x1, .f32⟩
  | .hbm, ⟨56, _⟩ => ⟨S1x1, .f32⟩
  | .hbm, ⟨57, _⟩ => ⟨S100000x1, .f32⟩
  | .hbm, ⟨58, _⟩ => ⟨S100000x1, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_cst : Ref sig .tc := ⟨.hbm, 52, rfl⟩
abbrev main_call1_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x3_S1600000x3_S1600000x6_d1 : Shape.Concatenates [S1600000x3, S1600000x3] S1600000x6 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S100000x64 : S_.BroadcastsInDim S100000x64 (![] : Fin 0 → Fin S100000x64.rank)
  concatenates_S1600000x64_S1600000x3_S1600000x67_d1 : Shape.Concatenates [S1600000x64, S1600000x3] S1600000x67 1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x3_S1600000x1_S1600000x3_1_0_n_n_0_1_13_wf : GatherDims.WF S100000x3 S1600000x1 S1600000x3 [1] [0] [] [0] [] 1 ![1, 3]
  dot_S1600000x6_S6x64_S1600000x64_1_0_0_1_n_n_wf : DotDims.WF S1600000x6 S6x64 S1600000x64 [1] [0] [0] [1] [] []
  scatter_S100000x64_S1600000x1_S1600000x64_1_0_0_1_wf : ScatterDims.WF S100000x64 S1600000x1 S1600000x64 [1] [0] [0] 1
  gather_S100000x64_S1600000x1_S1600000x64_1_0_n_n_0_1_164_wf : GatherDims.WF S100000x64 S1600000x1 S1600000x64 [1] [0] [] [0] [] 1 ![1, 64]
  dot_S1600000x67_S67x64_S1600000x64_1_0_0_1_n_n_wf : DotDims.WF S1600000x67 S67x64 S1600000x64 [1] [0] [0] [1] [] []
  dot_S100000x64_S64x1_S100000x1_1_0_0_1_n_n_wf : DotDims.WF S100000x64 S64x1 S100000x1 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x6_S6x64_S1600000x64_1_0_0_1_n_n : DotDims S1600000x6 S6x64 S1600000x64 where
  lhsContracting := [1]
  rhsContracting := [0]
  lhsNonContracting := [0]
  rhsNonContracting := [1]
  lhsBatch := []
  rhsBatch := []
  wf := dot_S1600000x6_S6x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x67_S67x64_S1600000x64_1_0_0_1_n_n : DotDims S1600000x67 S67x64 S1600000x64 where
  lhsContracting := [1]
  rhsContracting := [0]
  lhsNonContracting := [0]
  rhsNonContracting := [1]
  lhsBatch := []
  rhsBatch := []
  wf := dot_S1600000x67_S67x64_S1600000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The kernel's run over the extended reals (or any other reading of its floats), with its result named.

  @main is ten segments: five stretches of host operations, each followed by one kernel region. The contents of the
  TensorCore's buffers at the eleven segment boundaries form a chain from the launch memory; at the last boundary every
  buffer that outlives the regions holds the chain's last link. So every weakly fair execution terminates without a
  fault with the result buffer at the last link's value there, and each argument array as launched (no host operation
  and no region writes an argument).
-/
import proofs.«154564_j21474836480455_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the nine argument arrays as launched. -/
theorem run_named : θ_run defs (onTc (τ := τ) (main (F := F))) ⟨m, fun _ => 0, ρ⟩ (fun r => ∀ c : Dev nD,
      r.2.mem ((c.tc : Thread nD τ).loc main_v35) = W10 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v35 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Named

end
-- ==== Proof.LibPlainMatmul.lean ====
/-
  A matrix product into a zero accumulator, read at one entry, over the extended reals.

  For any extents M, K, N: the product of an M×K matrix and a K×N matrix with the plain dimension numbers (the left
  operand's axis 1 contracted with the right operand's axis 0, no batch axes), accumulated into the zero matrix, is at
  entry (p, n) the sum over k of left(p, k) · right(k, n). The accumulator contributes 0 + ·, the contraction index
  of the product is one coordinate k, and the operand indices at (p, n) and k are (p, k) and (k, n).
-/
import Idealize.ShloMosaic.Lib.ValueIdx
import Idealize.ShloMosaic.PureOps.Ideal.Laws

namespace Cert.LibPlainMatmul

open Idealize.ShloMosaic Idealize.ShloMosaic.ValueIdx

/-- The left operand's index at result entry `(p, n)` and contraction coordinate `k` is `(p, k)`. -/
theorem plain_lhsIdx {M K N : ℕ} (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index at result entry `(p, n)` and contraction coordinate `k` is `(k, n)`. -/
theorem plain_rhsIdx {M K N : ℕ} (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- An M×K matrix times a K×N matrix into the zero accumulator, at entry `(p, n)`: `∑ k, l (p, k) * r (k, n)`. -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (n : Fin N) :
    matmul (DotDims.plain M K N) prec l r (constant (F := Ideal) ⟨2, ![M, N]⟩ .f32 0x00000000#32) (ix2 p n)
      = ∑ k : Fin K, l (ix2 p k) * r (ix2 k n) := by
  show FloatOps.matmul _ _ _ _ _ _ = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension-numbers record `D` that is the plain one (a printed program names its own record). -/
theorem matmul_eq_plain_zero_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    matmul D prec l r (constant (F := Ideal) ⟨2, ![M, N]⟩ .f32 0x00000000#32) (ix2 p n)
      = ∑ k : Fin K, l (ix2 p k) * r (ix2 k n) := by
  subst hD; exact matmul_plain_zero_apply prec l r p n

end Cert.LibPlainMatmul
-- ==== Proof.LibGraphConv.lean ====
/-
  One layer of an edge-conditioned graph convolution and its dense read-out, as mathematics over the extended
  reals, for any extents.

  The message of edge `p` into output channel `n` is
      msg(p, n) = Σ_k h(p, k) · wh(k, n) + Σ_k e(p, k) · we(k, n) + b(0, n)
  where `h` holds the gathered node features (A channels), `e` the edge attributes (B channels), `wh` and `we` the
  two row blocks of one (A+B)×N weight matrix and `b` the bias as a 1×N row. The read-out of node `p` is
      out(p, n) = Σ_k h(p, k) · w(k, n) + b(0, n).
  Both depend on row `p` of the row-indexed operands only.

  The tile spelling computes them as matrix products into zero accumulators (operands first rounded to a narrower
  format, which is the identity on the extended reals), added, plus the bias row broadcast down the rows.
-/
import proofs.«154564_j21474836480455_1_alg».proof.Proof.LibPlainMatmul
import Idealize.ShloMosaic.Lib.ValueIdx
import Idealize.ShloMosaic.Lib.Pipeline.Value
import Idealize.ShloMosaic.PureOps.Ideal.Laws

noncomputable section

namespace Cert.LibGraphConv

open Idealize.ShloMosaic Idealize.ShloMosaic.ValueIdx Cert.LibPlainMatmul

/-- The per-edge message: features times their weight block, plus attributes times theirs, plus the bias row. -/
def edgeMsg {E A B N : ℕ} (h : FVec Ideal ⟨2, ![E, A]⟩ .f32) (e : FVec Ideal ⟨2, ![E, B]⟩ .f32)
    (wh : FVec Ideal ⟨2, ![A, N]⟩ .f32) (we : FVec Ideal ⟨2, ![B, N]⟩ .f32) (b : FVec Ideal ⟨2, ![1, N]⟩ .f32) :
    FVec Ideal ⟨2, ![E, N]⟩ .f32 :=
  fun j => ((∑ k : Fin A, h (ix2 (j 0) k) * wh (ix2 k (j 1))) + ∑ k : Fin B, e (ix2 (j 0) k) * we (ix2 k (j 1)))
    + b (ix2 0 (j 1))

/-- The dense read-out: features times the weight, plus the bias row. -/
def denseOut {E A N : ℕ} (h : FVec Ideal ⟨2, ![E, A]⟩ .f32) (w : FVec Ideal ⟨2, ![A, N]⟩ .f32)
    (b : FVec Ideal ⟨2, ![1, N]⟩ .f32) : FVec Ideal ⟨2, ![E, N]⟩ .f32 :=
  fun j => (∑ k : Fin A, h (ix2 (j 0) k) * w (ix2 k (j 1))) + b (ix2 0 (j 1))

theorem edgeMsg_apply {E A B N : ℕ} (h : FVec Ideal ⟨2, ![E, A]⟩ .f32) (e : FVec Ideal ⟨2, ![E, B]⟩ .f32)
    (wh : FVec Ideal ⟨2, ![A, N]⟩ .f32) (we : FVec Ideal ⟨2, ![B, N]⟩ .f32) (b : FVec Ideal ⟨2, ![1, N]⟩ .f32)
    (p : Fin E) (n : Fin N) :
    edgeMsg h e wh we b (ix2 p n)
      = ((∑ k : Fin A, h (ix2 p k) * wh (ix2 k n)) + ∑ k : Fin B, e (ix2 p k) * we (ix2 k n)) + b (ix2 0 n) := rfl

theorem denseOut_apply {E A N : ℕ} (h : FVec Ideal ⟨2, ![E, A]⟩ .f32) (w : FVec Ideal ⟨2, ![A, N]⟩ .f32)
    (b : FVec Ideal ⟨2, ![1, N]⟩ .f32) (p : Fin E) (n : Fin N) :
    denseOut h w b (ix2 p n) = (∑ k : Fin A, h (ix2 p k) * w (ix2 k n)) + b (ix2 0 n) := rfl

/-- A message depends on its own edge's row of the features and attributes, on its own channel's column of the two
    weight blocks and on its own channel's bias entry only: messages agree at entries where these agree. -/
theorem edgeMsg_congr {E E' A B N : ℕ}
    (h : FVec Ideal ⟨2, ![E, A]⟩ .f32) (e : FVec Ideal ⟨2, ![E, B]⟩ .f32) (wh : FVec Ideal ⟨2, ![A, N]⟩ .f32)
    (we : FVec Ideal ⟨2, ![B, N]⟩ .f32) (b : FVec Ideal ⟨2, ![1, N]⟩ .f32)
    (h' : FVec Ideal ⟨2, ![E', A]⟩ .f32) (e' : FVec Ideal ⟨2, ![E', B]⟩ .f32) (wh' : FVec Ideal ⟨2, ![A, N]⟩ .f32)
    (we' : FVec Ideal ⟨2, ![B, N]⟩ .f32) (b' : FVec Ideal ⟨2, ![1, N]⟩ .f32)
    (j : (⟨2, ![E, N]⟩ : Shape).Idx) (j' : (⟨2, ![E', N]⟩ : Shape).Idx)
    (hh : ∀ k : Fin A, h (ix2 (j 0) k) = h' (ix2 (j' 0) k)) (he : ∀ k : Fin B, e (ix2 (j 0) k) = e' (ix2 (j' 0) k))
    (hwh : ∀ k : Fin A, wh (ix2 k (j 1)) = wh' (ix2 k (j' 1))) (hwe : ∀ k : Fin B, we (ix2 k (j 1)) = we' (ix2 k (j' 1)))
    (hb : b (ix2 0 (j 1)) = b' (ix2 0 (j' 1))) :
    edgeMsg h e wh we b j = edgeMsg h' e' wh' we' b' j' := by
  show ((∑ k : Fin A, h (ix2 (j 0) k) * wh (ix2 k (j 1))) + ∑ k : Fin B, e (ix2 (j 0) k) * we (ix2 k (j 1)))
      + b (ix2 0 (j 1))
    = ((∑ k : Fin A, h' (ix2 (j' 0) k) * wh' (ix2 k (j' 1))) + ∑ k : Fin B, e' (ix2 (j' 0) k) * we' (ix2 k (j' 1)))
      + b' (ix2 0 (j' 1))
  have s1 : (∑ k : Fin A, h (ix2 (j 0) k) * wh (ix2 k (j 1))) = ∑ k : Fin A, h' (ix2 (j' 0) k) * wh' (ix2 k (j' 1)) :=
    Finset.sum_congr rfl fun k _ => by rw [hh k, hwh k]
  have s2 : (∑ k : Fin B, e (ix2 (j 0) k) * we (ix2 k (j 1))) = ∑ k : Fin B, e' (ix2 (j' 0) k) * we' (ix2 k (j' 1)) :=
    Finset.sum_congr rfl fun k _ => by rw [he k, hwe k]
  rw [hb, s1, s2]

/-- The read-out of a node depends on that node's row of the features, on its channel's column of the weight and on
    its channel's bias entry only. -/
theorem denseOut_congr {E E' A N : ℕ}
    (h : FVec Ideal ⟨2, ![E, A]⟩ .f32) (w : FVec Ideal ⟨2, ![A, N]⟩ .f32) (b : FVec Ideal ⟨2, ![1, N]⟩ .f32)
    (h' : FVec Ideal ⟨2, ![E', A]⟩ .f32) (w' : FVec Ideal ⟨2, ![A, N]⟩ .f32) (b' : FVec Ideal ⟨2, ![1, N]⟩ .f32)
    (j : (⟨2, ![E, N]⟩ : Shape).Idx) (j' : (⟨2, ![E', N]⟩ : Shape).Idx)
    (hh : ∀ k : Fin A, h (ix2 (j 0) k) = h' (ix2 (j' 0) k))
    (hw : ∀ k : Fin A, w (ix2 k (j 1)) = w' (ix2 k (j' 1))) (hb : b (ix2 0 (j 1)) = b' (ix2 0 (j' 1))) :
    denseOut h w b j = denseOut h' w' b' j' := by
  show (∑ k : Fin A, h (ix2 (j 0) k) * w (ix2 k (j 1))) + b (ix2 0 (j 1))
    = (∑ k : Fin A, h' (ix2 (j' 0) k) * w' (ix2 k (j' 1))) + b' (ix2 0 (j' 1))
  have s1 : (∑ k : Fin A, h (ix2 (j 0) k) * w (ix2 k (j 1))) = ∑ k : Fin A, h' (ix2 (j' 0) k) * w' (ix2 k (j' 1)) :=
    Finset.sum_congr rfl fun k _ => by rw [hh k, hw k]
  rw [hb, s1]

/-- A 1×N row broadcast down R rows, read at `(p, n)`: the row's entry `n`. -/
theorem rowBroadcast_apply {R N : ℕ} {α : Type} (x : (⟨2, ![1, N]⟩ : Shape).Idx → α)
    (hb : (⟨2, ![1, N]⟩ : Shape).Broadcasts ⟨2, ![R, N]⟩) (p : Fin R) (n : Fin N) :
    broadcastTo ⟨2, ![R, N]⟩ x hb (ix2 p n) = x (ix2 0 n) := by
  refine broadcastTo_apply x hb (ix2 p n) (ix2 0 n) fun a => ?_
  match a with
  | ⟨0, _⟩ => rfl
  | ⟨1, _⟩ =>
    show n.val = if N = 1 then 0 else n.val
    split
    · rename_i h1; have := n.isLt; omega
    · rfl

/-- The tile spelling of the message at `(p, n)`: two products into zero, added, plus the broadcast bias row. -/
theorem edge_tile_apply {R A B N : ℕ} {ψ : FTy}
    (D1 : DotDims ⟨2, ![R, A]⟩ ⟨2, ![A, N]⟩ ⟨2, ![R, N]⟩) (hD1 : D1 = DotDims.plain R A N)
    (D2 : DotDims ⟨2, ![R, B]⟩ ⟨2, ![B, N]⟩ ⟨2, ![R, N]⟩) (hD2 : D2 = DotDims.plain R B N)
    (h : FVec Ideal ⟨2, ![R, A]⟩ ψ) (e : FVec Ideal ⟨2, ![R, B]⟩ ψ)
    (wh : FVec Ideal ⟨2, ![A, N]⟩ ψ) (we : FVec Ideal ⟨2, ![B, N]⟩ ψ) (b : FVec Ideal ⟨2, ![1, N]⟩ .f32)
    (hb : (⟨2, ![1, N]⟩ : Shape).Broadcasts ⟨2, ![R, N]⟩) (p : Fin R) (n : Fin N) :
    addf (addf (matmul D1 none h wh (constant (F := Ideal) ⟨2, ![R, N]⟩ .f32 0x00000000#32))
                (matmul D2 none e we (constant (F := Ideal) ⟨2, ![R, N]⟩ .f32 0x00000000#32)))
         (broadcastTo ⟨2, ![R, N]⟩ b hb) (ix2 p n)
      = ((∑ k : Fin A, h (ix2 p k) * wh (ix2 k n)) + ∑ k : Fin B, e (ix2 p k) * we (ix2 k n)) + b (ix2 0 n) := by
  rw [addf_apply, addf_apply, matmul_eq_plain_zero_apply D1 hD1, matmul_eq_plain_zero_apply D2 hD2, rowBroadcast_apply]

/-- The tile spelling of the read-out at `(p, n)`: one product into zero plus the broadcast bias row. -/
theorem dense_tile_apply {R A N : ℕ} {ψ : FTy}
    (D : DotDims ⟨2, ![R, A]⟩ ⟨2, ![A, N]⟩ ⟨2, ![R, N]⟩) (hD : D = DotDims.plain R A N)
    (h : FVec Ideal ⟨2, ![R, A]⟩ ψ) (w : FVec Ideal ⟨2, ![A, N]⟩ ψ) (b : FVec Ideal ⟨2, ![1, N]⟩ .f32)
    (hb : (⟨2, ![1, N]⟩ : Shape).Broadcasts ⟨2, ![R, N]⟩) (p : Fin R) (n : Fin N) :
    addf (matmul D none h w (constant (F := Ideal) ⟨2, ![R, N]⟩ .f32 0x00000000#32))
         (broadcastTo ⟨2, ![R, N]⟩ b hb) (ix2 p n)
      = (∑ k : Fin A, h (ix2 p k) * w (ix2 k n)) + b (ix2 0 n) := by
  rw [addf_apply, matmul_eq_plain_zero_apply D hD, rowBroadcast_apply]

/-- The tile spelling as a whole: it IS the message of its operands. -/
theorem edge_tile_eq {R A B N : ℕ} {ψ : FTy}
    (D1 : DotDims ⟨2, ![R, A]⟩ ⟨2, ![A, N]⟩ ⟨2, ![R, N]⟩) (hD1 : D1 = DotDims.plain R A N)
    (D2 : DotDims ⟨2, ![R, B]⟩ ⟨2, ![B, N]⟩ ⟨2, ![R, N]⟩) (hD2 : D2 = DotDims.plain R B N)
    (h : FVec Ideal ⟨2, ![R, A]⟩ .f32) (e : FVec Ideal ⟨2, ![R, B]⟩ .f32)
    (wh : FVec Ideal ⟨2, ![A, N]⟩ .f32) (we : FVec Ideal ⟨2, ![B, N]⟩ .f32) (b : FVec Ideal ⟨2, ![1, N]⟩ .f32)
    (hψ : ψ.bits < FTy.bits .f32) (hb : (⟨2, ![1, N]⟩ : Shape).Broadcasts ⟨2, ![R, N]⟩) :
    addf (addf (matmul D1 none (truncf ψ h hψ) (truncf ψ wh hψ) (constant (F := Ideal) ⟨2, ![R, N]⟩ .f32 0x00000000#32))
                (matmul D2 none (truncf ψ e hψ) (truncf ψ we hψ) (constant (F := Ideal) ⟨2, ![R, N]⟩ .f32 0x00000000#32)))
         (broadcastTo ⟨2, ![R, N]⟩ b hb)
      = edgeMsg h e wh we b := by
  funext j
  obtain ⟨p, n, rfl⟩ : ∃ (p : Fin R) (n : Fin N), j = ix2 p n := ⟨j 0, j 1, eq_ix2 j⟩
  rw [edge_tile_apply D1 hD1 D2 hD2, edgeMsg_apply]
  rfl

/-- The read-out's tile spelling as a whole: it IS the dense read-out of its operands. -/
theorem dense_tile_eq {R A N : ℕ} {ψ : FTy}
    (D : DotDims ⟨2, ![R, A]⟩ ⟨2, ![A, N]⟩ ⟨2, ![R, N]⟩) (hD : D = DotDims.plain R A N)
    (h : FVec Ideal ⟨2, ![R, A]⟩ .f32) (w : FVec Ideal ⟨2, ![A, N]⟩ .f32) (b : FVec Ideal ⟨2, ![1, N]⟩ .f32)
    (hψ : ψ.bits < FTy.bits .f32) (hb : (⟨2, ![1, N]⟩ : Shape).Broadcasts ⟨2, ![R, N]⟩) :
    addf (matmul D none (truncf ψ h hψ) (truncf ψ w hψ) (constant (F := Ideal) ⟨2, ![R, N]⟩ .f32 0x00000000#32))
         (broadcastTo ⟨2, ![R, N]⟩ b hb)
      = denseOut h w b := by
  funext j
  obtain ⟨p, n, rfl⟩ : ∃ (p : Fin R) (n : Fin N), j = ix2 p n := ⟨j 0, j 1, eq_ix2 j⟩
  rw [dense_tile_apply D hD, denseOut_apply]
  rfl

end Cert.LibGraphConv

end
-- ==== Proof.Network.lean ====
/-
  The two-layer edge-conditioned graph network as ONE function of its nine argument arrays, over the extended reals.

  Edge p runs from node src(p) to node dst(p): rows 0 and 1 of the 2×1600000 edge list, a negative source index counted
  from the end of the node table. Layer 1 forms, for every edge, the message Σ_k x(src p, k)·W1(k, n) + Σ_k a(p, k)·W1(3 + k, n)
  + b1(n) from the source node's 3 features and the edge's 3 attributes, adds the messages up at each edge's target
  node (starting from zero) and rectifies the sums; layer 2 does the same from the 64 hidden channels with W2's rows
  0..63 and 64..66 and b2; the read-out is Σ_k h2(v, k)·W3(k, 0) + b3(0) for every node v.
-/
import proofs.«154564_j21474836480455_1_alg».proof.Proof.Gen.KernelIdeal
import proofs.«154564_j21474836480455_1_alg».proof.Proof.LibGraphConv

noncomputable section

namespace Cert.KernelIdeal.Network

open Cert.KernelIdeal Cert.KernelIdeal.Gen Cert.LibGraphConv Idealize.ShloMosaic

/-- A float array of a given shape, at the extended reals. -/
abbrev FArr (s : Shape) : Type := FVec Ideal s .f32
/-- A 32-bit integer array of a given shape. -/
abbrev IArr (s : Shape) : Type := (⟨s, .i32⟩ : BufTy).Contents (Elt Ideal)

/-- Every edge's source node: row 0 of the edge list. -/
def srcOf (x1 : IArr S2x1600000) : IArr S1600000 :=
  shapeCast S1600000 (extractStridedSlice S1x1600000 ![0, 0] x1 slices_S2x1600000_S1x1600000_0_0) shapeCasts_S1x1600000_S1600000

/-- Every edge's target node: row 1 of the edge list. -/
def dstOf (x1 : IArr S2x1600000) : IArr S1600000 :=
  shapeCast S1600000 (extractStridedSlice S1x1600000 ![1, 0] x1 slices_S2x1600000_S1x1600000_1_0) shapeCasts_S1x1600000_S1600000

/-- The source indices as a column, a negative index moved up by the number of nodes. -/
def srcCol (x1 : IArr S2x1600000) : IArr S1600000x1 :=
  broadcastInDim S1600000x1 ![0] bcast_S1600000_S1600000x1_0
    (select (cmpi .slt (srcOf x1) (broadcastInDim S1600000 ![] bcast_S_S1600000 (constantI S_ 32 0#32)))
      (addi (srcOf x1) (broadcastInDim S1600000 ![] bcast_S_S1600000 (constantI S_ 32 100000#32))) (srcOf x1))

/-- The target indices as a column. -/
def dstCol (x1 : IArr S2x1600000) : IArr S1600000x1 :=
  broadcastInDim S1600000x1 ![0] bcast_S1600000_S1600000x1_0 (dstOf x1)

/-- The all-zero node table. -/
def zeroTable : FArr S100000x64 :=
  broadcastInDim S100000x64 ![] bcast_S_S100000x64 (constant (F := Ideal) S_ .f32 0x00000000#32)

/-- The entrywise maximum of a node table and zero. -/
def relu (a : FArr S100000x64) : FArr S100000x64 := maximumf a zeroTable

/-- Each node's sum of the messages of the edges that end at it. -/
def aggregate (x1 : IArr S2x1600000) (msg : FArr S1600000x64) : FArr S100000x64 :=
  Host.scatterAdd (F := Ideal) (φ := .f32) scatter_S100000x64_S1600000x1_S1600000x64_1_0_0_1 zeroTable (dstCol x1) msg

/-- Layer 1's messages. -/
def msgs1 (x0 : FArr S100000x3) (x1 : IArr S2x1600000) (x2 : FArr S1600000x3) (x3 : FArr S6x64)
    (x4 : FArr S64) : FArr S1600000x64 :=
  edgeMsg (E := 1600000) (A := 3) (B := 3) (N := 64)
    (Host.gather gather_S100000x3_S1600000x1_S1600000x3_1_0_n_n_0_1_13 x0 (srcCol x1)) x2
    (extractStridedSlice S3x64 ![0, 0] x3 slices_S6x64_S3x64_0_0) (extractStridedSlice S3x64 ![3, 0] x3 slices_S6x64_S3x64_3_0)
    (shapeCast S1x64 x4 shapeCasts_S64_S1x64)

/-- The hidden features after layer 1. -/
def hidden1 (x0 : FArr S100000x3) (x1 : IArr S2x1600000) (x2 : FArr S1600000x3) (x3 : FArr S6x64)
    (x4 : FArr S64) : FArr S100000x64 :=
  relu (aggregate x1 (msgs1 x0 x1 x2 x3 x4))

/-- Layer 2's messages, from a table of hidden features. -/
def msgs2 (h1 : FArr S100000x64) (x1 : IArr S2x1600000) (x2 : FArr S1600000x3) (x5 : FArr S67x64)
    (x6 : FArr S64) : FArr S1600000x64 :=
  edgeMsg (E := 1600000) (A := 64) (B := 3) (N := 64)
    (Host.gather gather_S100000x64_S1600000x1_S1600000x64_1_0_n_n_0_1_164 h1 (srcCol x1)) x2
    (extractStridedSlice S64x64 ![0, 0] x5 slices_S67x64_S64x64_0_0) (extractStridedSlice S3x64 ![64, 0] x5 slices_S67x64_S3x64_64_0)
    (shapeCast S1x64 x6 shapeCasts_S64_S1x64)

/-- The hidden features after layer 2. -/
def hidden2 (x0 : FArr S100000x3) (x1 : IArr S2x1600000) (x2 : FArr S1600000x3) (x3 : FArr S6x64)
    (x4 : FArr S64) (x5 : FArr S67x64) (x6 : FArr S64) : FArr S100000x64 :=
  relu (aggregate x1 (msgs2 (hidden1 x0 x1 x2 x3 x4) x1 x2 x5 x6))

/-- The network's output: one number per node. -/
def out (x0 : FArr S100000x3) (x1 : IArr S2x1600000) (x2 : FArr S1600000x3) (x3 : FArr S6x64)
    (x4 : FArr S64) (x5 : FArr S67x64) (x6 : FArr S64) (x7 : FArr S64x1) (x8 : FArr S1) :
    FArr S100000x1 :=
  denseOut (E := 100000) (A := 64) (N := 1) (hidden2 x0 x1 x2 x3 x4 x5 x6) x7 (shapeCast S1x1 x8 shapeCasts_S1_S1x1)

end Cert.KernelIdeal.Network

end
-- ==== Proof.Edge0.lean ====
/-
  Region 0: the first layer's messages.

  The region walks the 1600000 edges in 250 blocks of 6400. At block t it loads rows 6400·t … 6400·t + 6399 of the
  gathered node features (3 channels) and of the edge attributes (3 channels), the two 3×64 weight blocks and the 1×64
  bias row whole, and writes back, for every edge p of the block and output channel n,
      Σ_k feature(p, k) · wh(k, n) + Σ_k attribute(p, k) · we(k, n) + bias(0, n).
  An edge's message depends on that edge's own row only, the output block is the same row range, and every edge lies in
  exactly one block: after the region the 1600000×64 output holds the layer's message for every edge.
-/
import proofs.«154564_j21474836480455_1_alg».proof.Proof.Gen.KernelIdeal.Frame
import proofs.«154564_j21474836480455_1_alg».proof.Proof.LibGraphConv
import Idealize.ShloMosaic.Lib.Pipeline.Value
import Idealize.ShloMosaic.Lib.ValueIdx

set_option maxRecDepth 16384

noncomputable section

namespace Cert.KernelIdeal.Regions0

open Cert.KernelIdeal Cert.KernelIdeal.Gen Cert.LibGraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The layer's messages from the arrays the region is entered with. -/
abbrev msgs (c : Dev nD) : FVec Ideal S1600000x64 .f32 :=
  edgeMsg (E := 1600000) (A := 3) (B := 3) (N := 64) (V c main_v10) (V c main_arg2) (V c main_v11) (V c main_v12) (V c main_v13)

/-- The body computes the message of its five blocks: the tile spelling, the roundings to a narrower format being the
    identity on the extended reals. -/
theorem pay_eq (x0 x1 : FVec Ideal S6400x3 .f32) (x2 x3 : FVec Ideal S3x64 .f32) (x4 : FVec Ideal S1x64 .f32) :
    k0_pay1 (F := Ideal) x0 x1 x2 x3 x4 = edgeMsg (E := 6400) (A := 3) (B := 3) (N := 64) x0 x1 x2 x3 x4 := by
  unfold k0_pay1
  simp only [shapeCast_self]
  exact edge_tile_eq (R := 6400) (A := 3) (B := 3) (N := 64) _ rfl _ rfl x0 x1 x2 x3 x4 _ _

/-- Where each window's block t starts: the three row-blocked windows at row 6400·t, the weights and the bias at the
    origin. -/
theorem blocks : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer's messages. -/
theorem flushed (c : Dev nD) (t : Fin cfg0.N) :
    (dat0 (F := Ideal) V c).flushed 5 t = ((cfg0.win 5).blk t).view.read (Elt Ideal) (msgs V c) := by
  show (cfg0.win 5).cut (grid0.coords t) ((dat0 V c).after 5 t) = _
  rw [after0_5]
  unfold out0_5
  rw [View.canon_unit_zero zero2]
  simp only [View.ld_unit_zero (S := S6400x3) zero2, View.ld_unit_zero (S := S3x64) zero2,
    View.ld_unit_zero (S := S1x64) zero2]
  obtain ⟨a00, a01, a10, a11, a20, a21, a30, a31, a40, a41, a50, a51⟩ := blocks t
  funext j
  show k0_pay1 (F := Ideal) (iblk0 V c 0 t) (iblk0 V c 1 t) (iblk0 V c 2 t) (iblk0 V c 3 t) (iblk0 V c 4 t) j
      = msgs V c (((cfg0.win 5).blk t).view.emb j)
  refine (congrFun (pay_eq (iblk0 V c 0 t) (iblk0 V c 1 t) (iblk0 V c 2 t) (iblk0 V c 3 t) (iblk0 V c 4 t)) j).trans ?_
  refine edgeMsg_congr (E := 6400) (E' := 1600000) (A := 3) (B := 3) (N := 64)
    (iblk0 V c 0 t) (iblk0 V c 1 t) (iblk0 V c 2 t) (iblk0 V c 3 t) (iblk0 V c 4 t)
    (V c main_v10) (V c main_arg2) (V c main_v11) (V c main_v12) (V c main_v13) j (((cfg0.win 5).blk t).view.emb j)
    (fun k => ?_) (fun k => ?_) (fun k => ?_) (fun k => ?_) ?_
  · show (V c main_v10 : FVec Ideal S1600000x3 .f32) (((cfg0.win 0).blk t).view.emb (ix2 (n0 := 6400) (j 0) k)) = _
    refine congrArg _ (funext fun a => Fin.ext ?_)
    match a with
    | ⟨0, _⟩ => show win0_0.index t (0 : Fin 2) * 6400 + 1 * (j 0).val = win0_5.index t (0 : Fin 2) * 6400 + 1 * (j 0).val; omega
    | ⟨1, _⟩ => show win0_0.index t (1 : Fin 2) * 3 + 1 * k.val = k.val; omega
  · show (V c main_arg2 : FVec Ideal S1600000x3 .f32) (((cfg0.win 1).blk t).view.emb (ix2 (n0 := 6400) (j 0) k)) = _
    refine congrArg _ (funext fun a => Fin.ext ?_)
    match a with
    | ⟨0, _⟩ => show win0_1.index t (0 : Fin 2) * 6400 + 1 * (j 0).val = win0_5.index t (0 : Fin 2) * 6400 + 1 * (j 0).val; omega
    | ⟨1, _⟩ => show win0_1.index t (1 : Fin 2) * 3 + 1 * k.val = k.val; omega
  · show (V c main_v11 : FVec Ideal S3x64 .f32) (((cfg0.win 2).blk t).view.emb (ix2 k (n1 := 64) (j 1))) = _
    refine congrArg _ (funext fun a => Fin.ext ?_)
    match a with
    | ⟨0, _⟩ => show win0_2.index t (0 : Fin 2) * 3 + 1 * k.val = k.val; omega
    | ⟨1, _⟩ => show win0_2.index t (1 : Fin 2) * 64 + 1 * (j 1).val = win0_5.index t (1 : Fin 2) * 64 + 1 * (j 1).val; omega
  · show (V c main_v12 : FVec Ideal S3x64 .f32) (((cfg0.win 3).blk t).view.emb (ix2 k (n1 := 64) (j 1))) = _
    refine congrArg _ (funext fun a => Fin.ext ?_)
    match a with
    | ⟨0, _⟩ => show win0_3.index t (0 : Fin 2) * 3 + 1 * k.val = k.val; omega
    | ⟨1, _⟩ => show win0_3.index t (1 : Fin 2) * 64 + 1 * (j 1).val = win0_5.index t (1 : Fin 2) * 64 + 1 * (j 1).val; omega
  · show (V c main_v13 : FVec Ideal S1x64 .f32) (((cfg0.win 4).blk t).view.emb (ix2 (0 : Fin 1) (n1 := 64) (j 1))) = _
    refine congrArg _ (funext fun a => Fin.ext ?_)
    match a with
    | ⟨0, _⟩ => show win0_4.index t (0 : Fin 2) * 1 + 1 * (0 : Fin 1).val = (0 : Fin 1).val; rw [a40]; rfl
    | ⟨1, _⟩ => show win0_4.index t (1 : Fin 2) * 64 + 1 * (j 1).val = win0_5.index t (1 : Fin 2) * 64 + 1 * (j 1).val; omega

/-- An entry of the output is in point t's block iff each coordinate is in the block's range on its axis. -/
theorem mem_blk (t : Fin cfg0.N) (i : S1600000x64.Idx) :
    i ∈ ((cfg0.win 5).blk t).view.set ↔ ∀ a : Fin 2, win0_5.index t a * S6400x64.size a ≤ (i a).val
      ∧ (i a).val < win0_5.index t a * S6400x64.size a + S6400x64.size a := by
  show i ∈ ((View.whole main_v14).slice (win0_5.rect t)).set ↔ _
  rw [View.set_slice_whole, Rect.mem_set_unit]
  exact Iff.rfl

/-- Every entry lies in a block that is written back: edge r is in block r / 6400. -/
theorem cover (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : (i 0).val / 6400 < cfg0.N := by show _ < grid0.N; rw [N_0]; omega
  obtain ⟨a00, a01, a10, a11, a20, a21, a30, a31, a40, a41, a50, a51⟩ := blocks ⟨(i 0).val / 6400, hN⟩
  refine ⟨⟨(i 0).val / 6400, hN⟩, flush0_5 _, ?_⟩
  rw [mem_blk]
  intro a
  match a with
  | ⟨0, _⟩ =>
    show win0_5.index ⟨(i 0).val / 6400, hN⟩ (0 : Fin 2) * 6400 ≤ (i 0).val
      ∧ (i 0).val < win0_5.index ⟨(i 0).val / 6400, hN⟩ (0 : Fin 2) * 6400 + 6400
    rw [a50]; show (i 0).val / 6400 * 6400 ≤ (i 0).val ∧ (i 0).val < (i 0).val / 6400 * 6400 + 6400; omega
  | ⟨1, _⟩ =>
    show win0_5.index ⟨(i 0).val / 6400, hN⟩ (1 : Fin 2) * 64 ≤ (i 1).val
      ∧ (i 1).val < win0_5.index ⟨(i 0).val / 6400, hN⟩ (1 : Fin 2) * 64 + 64
    rw [a51]; omega

/-- After the region the output array holds the layer's message for every edge. -/
theorem final (c : Dev nD) : (dat0 (F := Ideal) V c).arrAt 5 cfg0.N = msgs V c :=
  (dat0 V c).arrAt_eq_of_cover 5 (msgs V c) (fun t _ => flushed V c t) cover

end Cert.KernelIdeal.Regions0

end
-- ==== Proof.Relu1.lean ====
/-
  Region 1: the rectified table.

  The region walks the 100000×64 table of aggregated messages in ten blocks of 10000 rows. At each block it writes
  back the entrywise maximum of the block and zero. Input and output blocks move together (block t is rows
  10000·t … 10000·t + 9999, all 64 columns), every row lies in exactly one block, and the maximum is taken entry by
  entry, so after the region the output table is the entrywise maximum of the whole input table and zero.
-/
import proofs.«154564_j21474836480455_1_alg».proof.Proof.Gen.KernelIdeal.Frame
import proofs.«154564_j21474836480455_1_alg».proof.Proof.Network
import Idealize.ShloMosaic.Lib.Pipeline.Value
import Idealize.ShloMosaic.Lib.ValueIdx

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- Block t of either window starts at row 10000·t, column 0. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The body's value at an entry: the maximum of the loaded entry and zero. -/
theorem relu_pay_apply (x : Vec Ideal S10000x64 .f32) (y : S10000x64.Idx) :
    k1_pay1 (F := Ideal) x y = max (x y) (Scalar.ofBits (F := Ideal) .f32 0x00000000#32) := by
  unfold k1_pay1
  rw [shapeCast_self]
  rfl

/-- What point t writes back is block t of the rectified input table. -/
theorem relu1_flushed (c : Dev nD) (t : Fin cfg1.N) :
    (dat1 (F := Ideal) V c).flushed 1 t
      = ((cfg1.win 1).blk t).view.read (Elt Ideal) (Network.relu (V c main_v17)) := by
  show (cfg1.win 1).cut (grid1.coords t) ((dat1 V c).after 1 t) = _
  rw [after1_1]
  unfold out1_1
  rw [View.canon_unit_zero zero2]
  simp only [View.ld_unit_zero (S := S10000x64) zero2]
  obtain ⟨e0, e1, e2, e3⟩ := blocks1 t
  funext j
  show k1_pay1 (F := Ideal) (iblk1 V c 0 t) j = Network.relu (V c main_v17) (((cfg1.win 1).blk t).view.emb j)
  refine (relu_pay_apply _ _).trans ?_
  have h0 : ((cfg1.win 0).blk t).view.emb j = ((cfg1.win 1).blk t).view.emb j := by
    funext a; apply Fin.ext
    match a with
    | ⟨0, _⟩ => show win1_0.index t (0 : Fin 2) * 10000 + 1 * (j 0).val = win1_1.index t (0 : Fin 2) * 10000 + 1 * (j 0).val; omega
    | ⟨1, _⟩ => show win1_0.index t (1 : Fin 2) * 64 + 1 * (j 1).val = win1_1.index t (1 : Fin 2) * 64 + 1 * (j 1).val; omega
  have hx : (iblk1 V c 0 t j : EReal)
      = (V c main_v17 : FVec Ideal S100000x64 .f32) (((cfg1.win 1).blk t).view.emb j) := by
    show (V c main_v17 : FVec Ideal S100000x64 .f32) (((cfg1.win 0).blk t).view.emb j) = _
    rw [h0]
  rw [hx]
  rfl

/-- An entry of the table is in point t's block iff each coordinate is in the block's range on its axis. -/
theorem mem_blk1 (t : Fin cfg1.N) (i : S100000x64.Idx) :
    i ∈ ((cfg1.win 1).blk t).view.set ↔ ∀ a : Fin 2, win1_1.index t a * S10000x64.size a ≤ (i a).val
      ∧ (i a).val < win1_1.index t a * S10000x64.size a + S10000x64.size a := by
  show i ∈ ((View.whole main_v18).slice (win1_1.rect t)).set ↔ _
  rw [View.set_slice_whole, Rect.mem_set_unit]
  exact Iff.rfl

/-- Every entry lies in a block that is written back: row r is in block r / 10000. -/
theorem cover1 (i : S100000x64.Idx) :
    ∃ t : Fin cfg1.N, (cfg1.win 1).flush t = true ∧ i ∈ ((cfg1.win 1).blk t).view.set := by
  have hi0 : (i 0).val < 100000 := (i 0).isLt
  have hi1 : (i 1).val < 64 := (i 1).isLt
  have hN : (i 0).val / 10000 < cfg1.N := by show _ < grid1.N; rw [N_1]; omega
  obtain ⟨e0, e1, e2, e3⟩ := blocks1 ⟨(i 0).val / 10000, hN⟩
  refine ⟨⟨(i 0).val / 10000, hN⟩, flush1_1 _, ?_⟩
  rw [mem_blk1]
  intro a
  match a with
  | ⟨0, _⟩ =>
    show win1_1.index ⟨(i 0).val / 10000, hN⟩ (0 : Fin 2) * 10000 ≤ (i 0).val
      ∧ (i 0).val < win1_1.index ⟨(i 0).val / 10000, hN⟩ (0 : Fin 2) * 10000 + 10000
    rw [e2]; show (i 0).val / 10000 * 10000 ≤ (i 0).val ∧ (i 0).val < (i 0).val / 10000 * 10000 + 10000; omega
  | ⟨1, _⟩ =>
    show win1_1.index ⟨(i 0).val / 10000, hN⟩ (1 : Fin 2) * 64 ≤ (i 1).val
      ∧ (i 1).val < win1_1.index ⟨(i 0).val / 10000, hN⟩ (1 : Fin 2) * 64 + 64
    rw [e3]; omega

/-- After the region the output table is the rectified input table. -/
theorem relu1_final (c : Dev nD) : (dat1 (F := Ideal) V c).arrAt 1 cfg1.N = Network.relu (V c main_v17) :=
  (dat1 V c).arrAt_eq_of_cover 1 (Network.relu (V c main_v17)) (fun t _ => relu1_flushed V c t) cover1

end Cert.KernelIdeal.Regions

end
-- ==== Proof.Edge2.lean ====
/-
  Region 2: the second layer's messages.

  The region walks the 1600000 edges in 250 blocks of 6400. At block t it loads rows 6400·t … 6400·t + 6399 of the
  gathered hidden features (64 channels) and of the edge attributes (3 channels), the 64×64 and 3×64 weight blocks and the 1×64
  bias row whole, and writes back, for every edge p of the block and output channel n,
      Σ_k feature(p, k) · wh(k, n) + Σ_k attribute(p, k) · we(k, n) + bias(0, n).
  An edge's message depends on that edge's own row only, the output block is the same row range, and every edge lies in
  exactly one block: after the region the 1600000×64 output holds the layer's message for every edge.
-/
import proofs.«154564_j21474836480455_1_alg».proof.Proof.Gen.KernelIdeal.Frame
import proofs.«154564_j21474836480455_1_alg».proof.Proof.LibGraphConv
import Idealize.ShloMosaic.Lib.Pipeline.Value
import Idealize.ShloMosaic.Lib.ValueIdx

set_option maxRecDepth 16384

noncomputable section

namespace Cert.KernelIdeal.Regions2

open Cert.KernelIdeal Cert.KernelIdeal.Gen Cert.LibGraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The layer's messages from the arrays the region is entered with. -/
abbrev msgs (c : Dev nD) : FVec Ideal S1600000x64 .f32 :=
  edgeMsg (E := 1600000) (A := 64) (B := 3) (N := 64) (V c main_v25) (V c main_arg2) (V c main_v26) (V c main_v27) (V c main_v28)

/-- The body computes the message of its five blocks: the tile spelling, the roundings to a narrower format being the
    identity on the extended reals. -/
theorem pay_eq (x0 : FVec Ideal S6400x64 .f32) (x1 : FVec Ideal S6400x3 .f32) (x2 : FVec Ideal S64x64 .f32)
    (x3 : FVec Ideal S3x64 .f32) (x4 : FVec Ideal S1x64 .f32) :
    k2_pay1 (F := Ideal) x0 x1 x2 x3 x4 = edgeMsg (E := 6400) (A := 64) (B := 3) (N := 64) x0 x1 x2 x3 x4 := by
  unfold k2_pay1
  simp only [shapeCast_self]
  exact edge_tile_eq (R := 6400) (A := 64) (B := 3) (N := 64) _ rfl _ rfl x0 x1 x2 x3 x4 _ _

/-- Where each window's block t starts: the three row-blocked windows at row 6400·t, the weights and the bias at the
    origin. -/
theorem blocks : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer's messages. -/
theorem flushed (c : Dev nD) (t : Fin cfg2.N) :
    (dat2 (F := Ideal) V c).flushed 5 t = ((cfg2.win 5).blk t).view.read (Elt Ideal) (msgs V c) := by
  show (cfg2.win 5).cut (grid2.coords t) ((dat2 V c).after 5 t) = _
  rw [after2_5]
  unfold out2_5
  rw [View.canon_unit_zero zero2]
  simp only [View.ld_unit_zero (S := S6400x64) zero2, View.ld_unit_zero (S := S6400x3) zero2,
    View.ld_unit_zero (S := S64x64) zero2, View.ld_unit_zero (S := S3x64) zero2, View.ld_unit_zero (S := S1x64) zero2]
  obtain ⟨a00, a01, a10, a11, a20, a21, a30, a31, a40, a41, a50, a51⟩ := blocks t
  funext j
  show k2_pay1 (F := Ideal) (iblk2 V c 0 t) (iblk2 V c 1 t) (iblk2 V c 2 t) (iblk2 V c 3 t) (iblk2 V c 4 t) j
      = msgs V c (((cfg2.win 5).blk t).view.emb j)
  refine (congrFun (pay_eq (iblk2 V c 0 t) (iblk2 V c 1 t) (iblk2 V c 2 t) (iblk2 V c 3 t) (iblk2 V c 4 t)) j).trans ?_
  refine edgeMsg_congr (E := 6400) (E' := 1600000) (A := 64) (B := 3) (N := 64)
    (iblk2 V c 0 t) (iblk2 V c 1 t) (iblk2 V c 2 t) (iblk2 V c 3 t) (iblk2 V c 4 t)
    (V c main_v25) (V c main_arg2) (V c main_v26) (V c main_v27) (V c main_v28) j (((cfg2.win 5).blk t).view.emb j)
    (fun k => ?_) (fun k => ?_) (fun k => ?_) (fun k => ?_) ?_
  · show (V c main_v25 : FVec Ideal S1600000x64 .f32) (((cfg2.win 0).blk t).view.emb (ix2 (n0 := 6400) (j 0) k)) = _
    refine congrArg _ (funext fun a => Fin.ext ?_)
    match a with
    | ⟨0, _⟩ => show win2_0.index t (0 : Fin 2) * 6400 + 1 * (j 0).val = win2_5.index t (0 : Fin 2) * 6400 + 1 * (j 0).val; omega
    | ⟨1, _⟩ => show win2_0.index t (1 : Fin 2) * 64 + 1 * k.val = k.val; omega
  · show (V c main_arg2 : FVec Ideal S1600000x3 .f32) (((cfg2.win 1).blk t).view.emb (ix2 (n0 := 6400) (j 0) k)) = _
    refine congrArg _ (funext fun a => Fin.ext ?_)
    match a with
    | ⟨0, _⟩ => show win2_1.index t (0 : Fin 2) * 6400 + 1 * (j 0).val = win2_5.index t (0 : Fin 2) * 6400 + 1 * (j 0).val; omega
    | ⟨1, _⟩ => show win2_1.index t (1 : Fin 2) * 3 + 1 * k.val = k.val; omega
  · show (V c main_v26 : FVec Ideal S64x64 .f32) (((cfg2.win 2).blk t).view.emb (ix2 k (n1 := 64) (j 1))) = _
    refine congrArg _ (funext fun a => Fin.ext ?_)
    match a with
    | ⟨0, _⟩ => show win2_2.index t (0 : Fin 2) * 64 + 1 * k.val = k.val; omega
    | ⟨1, _⟩ => show win2_2.index t (1 : Fin 2) * 64 + 1 * (j 1).val = win2_5.index t (1 : Fin 2) * 64 + 1 * (j 1).val; omega
  · show (V c main_v27 : FVec Ideal S3x64 .f32) (((cfg2.win 3).blk t).view.emb (ix2 k (n1 := 64) (j 1))) = _
    refine congrArg _ (funext fun a => Fin.ext ?_)
    match a with
    | ⟨0, _⟩ => show win2_3.index t (0 : Fin 2) * 3 + 1 * k.val = k.val; omega
    | ⟨1, _⟩ => show win2_3.index t (1 : Fin 2) * 64 + 1 * (j 1).val = win2_5.index t (1 : Fin 2) * 64 + 1 * (j 1).val; omega
  · show (V c main_v28 : FVec Ideal S1x64 .f32) (((cfg2.win 4).blk t).view.emb (ix2 (0 : Fin 1) (n1 := 64) (j 1))) = _
    refine congrArg _ (funext fun a => Fin.ext ?_)
    match a with
    | ⟨0, _⟩ => show win2_4.index t (0 : Fin 2) * 1 + 1 * (0 : Fin 1).val = (0 : Fin 1).val; rw [a40]; rfl
    | ⟨1, _⟩ => show win2_4.index t (1 : Fin 2) * 64 + 1 * (j 1).val = win2_5.index t (1 : Fin 2) * 64 + 1 * (j 1).val; omega

/-- An entry of the output is in point t's block iff each coordinate is in the block's range on its axis. -/
theorem mem_blk (t : Fin cfg2.N) (i : S1600000x64.Idx) :
    i ∈ ((cfg2.win 5).blk t).view.set ↔ ∀ a : Fin 2, win2_5.index t a * S6400x64.size a ≤ (i a).val
      ∧ (i a).val < win2_5.index t a * S6400x64.size a + S6400x64.size a := by
  show i ∈ ((View.whole main_v29).slice (win2_5.rect t)).set ↔ _
  rw [View.set_slice_whole, Rect.mem_set_unit]
  exact Iff.rfl

/-- Every entry lies in a block that is written back: edge r is in block r / 6400. -/
theorem cover (i : S1600000x64.Idx) :
    ∃ t : Fin cfg2.N, (cfg2.win 5).flush t = true ∧ i ∈ ((cfg2.win 5).blk t).view.set := by
  have hi0 : (i 0).val < 1600000 := (i 0).isLt
  have hi1 : (i 1).val < 64 := (i 1).isLt
  have hN : (i 0).val / 6400 < cfg2.N := by show _ < grid2.N; rw [N_2]; omega
  obtain ⟨a00, a01, a10, a11, a20, a21, a30, a31, a40, a41, a50, a51⟩ := blocks ⟨(i 0).val / 6400, hN⟩
  refine ⟨⟨(i 0).val / 6400, hN⟩, flush2_5 _, ?_⟩
  rw [mem_blk]
  intro a
  match a with
  | ⟨0, _⟩ =>
    show win2_5.index ⟨(i 0).val / 6400, hN⟩ (0 : Fin 2) * 6400 ≤ (i 0).val
      ∧ (i 0).val < win2_5.index ⟨(i 0).val / 6400, hN⟩ (0 : Fin 2) * 6400 + 6400
    rw [a50]; show (i 0).val / 6400 * 6400 ≤ (i 0).val ∧ (i 0).val < (i 0).val / 6400 * 6400 + 6400; omega
  | ⟨1, _⟩ =>
    show win2_5.index ⟨(i 0).val / 6400, hN⟩ (1 : Fin 2) * 64 ≤ (i 1).val
      ∧ (i 1).val < win2_5.index ⟨(i 0).val / 6400, hN⟩ (1 : Fin 2) * 64 + 64
    rw [a51]; omega

/-- After the region the output array holds the layer's message for every edge. -/
theorem final (c : Dev nD) : (dat2 (F := Ideal) V c).arrAt 5 cfg2.N = msgs V c :=
  (dat2 V c).arrAt_eq_of_cover 5 (msgs V c) (fun t _ => flushed V c t) cover

end Cert.KernelIdeal.Regions2

end
-- ==== Proof.Relu3.lean ====
/-
  Region 3: the second rectified table.

  The region walks the 100000×64 table of the second layer's aggregated messages in ten blocks of 10000 rows. At each block it writes
  back the entrywise maximum of the block and zero. Input and output blocks move together (block t is rows
  10000·t … 10000·t + 9999, all 64 columns), every row lies in exactly one block, and the maximum is taken entry by
  entry, so after the region the output table is the entrywise maximum of the whole input table and zero.
-/
import proofs.«154564_j21474836480455_1_alg».proof.Proof.Gen.KernelIdeal.Frame
import proofs.«154564_j21474836480455_1_alg».proof.Proof.Network
import Idealize.ShloMosaic.Lib.Pipeline.Value
import Idealize.ShloMosaic.Lib.ValueIdx

set_option maxRecDepth 16384

noncomputable section

namespace Cert.KernelIdeal.Regions3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- Block t of either window starts at row 10000·t, column 0. -/
theorem blocks3 : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- The body's value at an entry: the maximum of the loaded entry and zero. -/
theorem relu3_pay_apply (x : Vec Ideal S10000x64 .f32) (y : S10000x64.Idx) :
    k3_pay1 (F := Ideal) x y = max (x y) (Scalar.ofBits (F := Ideal) .f32 0x00000000#32) := by
  unfold k3_pay1
  rw [shapeCast_self]
  rfl

/-- What point t writes back is block t of the rectified input table. -/
theorem relu3_flushed (c : Dev nD) (t : Fin cfg3.N) :
    (dat3 (F := Ideal) V c).flushed 1 t
      = ((cfg3.win 1).blk t).view.read (Elt Ideal) (Network.relu (V c main_v32)) := by
  show (cfg3.win 1).cut (grid3.coords t) ((dat3 V c).after 1 t) = _
  rw [after3_1]
  unfold out3_1
  rw [View.canon_unit_zero zero2]
  simp only [View.ld_unit_zero (S := S10000x64) zero2]
  obtain ⟨e0, e1, e2, e3⟩ := blocks3 t
  funext j
  show k3_pay1 (F := Ideal) (iblk3 V c 0 t) j = Network.relu (V c main_v32) (((cfg3.win 1).blk t).view.emb j)
  refine (relu3_pay_apply _ _).trans ?_
  have h0 : ((cfg3.win 0).blk t).view.emb j = ((cfg3.win 1).blk t).view.emb j := by
    funext a; apply Fin.ext
    match a with
    | ⟨0, _⟩ => show win3_0.index t (0 : Fin 2) * 10000 + 1 * (j 0).val = win3_1.index t (0 : Fin 2) * 10000 + 1 * (j 0).val; omega
    | ⟨1, _⟩ => show win3_0.index t (1 : Fin 2) * 64 + 1 * (j 1).val = win3_1.index t (1 : Fin 2) * 64 + 1 * (j 1).val; omega
  have hx : (iblk3 V c 0 t j : EReal)
      = (V c main_v32 : FVec Ideal S100000x64 .f32) (((cfg3.win 1).blk t).view.emb j) := by
    show (V c main_v32 : FVec Ideal S100000x64 .f32) (((cfg3.win 0).blk t).view.emb j) = _
    rw [h0]
  rw [hx]
  rfl

/-- An entry of the table is in point t's block iff each coordinate is in the block's range on its axis. -/
theorem mem_blk3 (t : Fin cfg3.N) (i : S100000x64.Idx) :
    i ∈ ((cfg3.win 1).blk t).view.set ↔ ∀ a : Fin 2, win3_1.index t a * S10000x64.size a ≤ (i a).val
      ∧ (i a).val < win3_1.index t a * S10000x64.size a + S10000x64.size a := by
  show i ∈ ((View.whole main_v33).slice (win3_1.rect t)).set ↔ _
  rw [View.set_slice_whole, Rect.mem_set_unit]
  exact Iff.rfl

/-- Every entry lies in a block that is written back: row r is in block r / 10000. -/
theorem cover3 (i : S100000x64.Idx) :
    ∃ t : Fin cfg3.N, (cfg3.win 1).flush t = true ∧ i ∈ ((cfg3.win 1).blk t).view.set := by
  have hi0 : (i 0).val < 100000 := (i 0).isLt
  have hi1 : (i 1).val < 64 := (i 1).isLt
  have hN : (i 0).val / 10000 < cfg3.N := by show _ < grid3.N; rw [N_3]; omega
  obtain ⟨e0, e1, e2, e3⟩ := blocks3 ⟨(i 0).val / 10000, hN⟩
  refine ⟨⟨(i 0).val / 10000, hN⟩, flush3_1 _, ?_⟩
  rw [mem_blk3]
  intro a
  match a with
  | ⟨0, _⟩ =>
    show win3_1.index ⟨(i 0).val / 10000, hN⟩ (0 : Fin 2) * 10000 ≤ (i 0).val
      ∧ (i 0).val < win3_1.index ⟨(i 0).val / 10000, hN⟩ (0 : Fin 2) * 10000 + 10000
    rw [e2]; show (i 0).val / 10000 * 10000 ≤ (i 0).val ∧ (i 0).val < (i 0).val / 10000 * 10000 + 10000; omega
  | ⟨1, _⟩ =>
    show win3_1.index ⟨(i 0).val / 10000, hN⟩ (1 : Fin 2) * 64 ≤ (i 1).val
      ∧ (i 1).val < win3_1.index ⟨(i 0).val / 10000, hN⟩ (1 : Fin 2) * 64 + 64
    rw [e3]; omega

/-- After the region the output table is the rectified input table. -/
theorem relu3_final (c : Dev nD) : (dat3 (F := Ideal) V c).arrAt 1 cfg3.N = Network.relu (V c main_v32) :=
  (dat3 V c).arrAt_eq_of_cover 1 (Network.relu (V c main_v32)) (fun t _ => relu3_flushed V c t) cover3

end Cert.KernelIdeal.Regions3

end
-- ==== Proof.Dense4.lean ====
/-
  Region 4: the read-out.

  The region walks the 100000 nodes in ten blocks of 10000. At block t it loads rows 10000·t … 10000·t + 9999 of the
  64 hidden channels, the 64×1 weight and the 1×1 bias whole, and writes back, for every node p of the block,
      Σ_k hidden(p, k) · w(k, 0) + bias(0, 0).
  A node's value depends on that node's own row only, the output block is the same row range, and every node lies in
  exactly one block: after the region the 100000×1 output holds the read-out of every node.
-/
import proofs.«154564_j21474836480455_1_alg».proof.Proof.Gen.KernelIdeal.Frame
import proofs.«154564_j21474836480455_1_alg».proof.Proof.LibGraphConv
import Idealize.ShloMosaic.Lib.Pipeline.Value
import Idealize.ShloMosaic.Lib.ValueIdx

set_option maxRecDepth 16384

noncomputable section

namespace Cert.KernelIdeal.Regions4

open Cert.KernelIdeal Cert.KernelIdeal.Gen Cert.LibGraphConv
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The read-out from the arrays the region is entered with. -/
abbrev readout (c : Dev nD) : FVec Ideal S100000x1 .f32 :=
  denseOut (E := 100000) (A := 64) (N := 1) (V c main_v33) (V c main_arg7) (V c main_v34)

/-- The body computes the read-out of its three blocks: the tile spelling, the roundings to a narrower format being
    the identity on the extended reals. -/
theorem pay_eq (x0 : FVec Ideal S10000x64 .f32) (x1 : FVec Ideal S64x1 .f32) (x2 : FVec Ideal S1x1 .f32) :
    k4_pay1 (F := Ideal) x0 x1 x2 = denseOut (E := 10000) (A := 64) (N := 1) x0 x1 x2 := by
  unfold k4_pay1
  simp only [shapeCast_self]
  exact dense_tile_eq (R := 10000) (A := 64) (N := 1) _ rfl x0 x1 x2 _ _

/-- Where each window's block t starts: the two row-blocked windows at row 10000·t, the weight and the bias at the
    origin. -/
theorem blocks : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the read-out. -/
theorem flushed (c : Dev nD) (t : Fin cfg4.N) :
    (dat4 (F := Ideal) V c).flushed 3 t = ((cfg4.win 3).blk t).view.read (Elt Ideal) (readout V c) := by
  show (cfg4.win 3).cut (grid4.coords t) ((dat4 V c).after 3 t) = _
  rw [after4_3]
  unfold out4_3
  rw [View.canon_unit_zero zero2]
  simp only [View.ld_unit_zero (S := S10000x64) zero2, View.ld_unit_zero (S := S64x1) zero2,
    View.ld_unit_zero (S := S1x1) zero2]
  obtain ⟨a00, a01, a10, a11, a20, a21, a30, a31⟩ := blocks t
  funext j
  show k4_pay1 (F := Ideal) (iblk4 V c 0 t) (iblk4 V c 1 t) (iblk4 V c 2 t) j
      = readout V c (((cfg4.win 3).blk t).view.emb j)
  refine (congrFun (pay_eq (iblk4 V c 0 t) (iblk4 V c 1 t) (iblk4 V c 2 t)) j).trans ?_
  refine denseOut_congr (E := 10000) (E' := 100000) (A := 64) (N := 1)
    (iblk4 V c 0 t) (iblk4 V c 1 t) (iblk4 V c 2 t)
    (V c main_v33) (V c main_arg7) (V c main_v34) j (((cfg4.win 3).blk t).view.emb j)
    (fun k => ?_) (fun k => ?_) ?_
  · show (V c main_v33 : FVec Ideal S100000x64 .f32) (((cfg4.win 0).blk t).view.emb (ix2 (n0 := 10000) (j 0) k)) = _
    refine congrArg _ (funext fun a => Fin.ext ?_)
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 64 + 1 * k.val = k.val; omega
  · show (V c main_arg7 : FVec Ideal S64x1 .f32) (((cfg4.win 1).blk t).view.emb (ix2 k (n1 := 1) (j 1))) = _
    refine congrArg _ (funext fun a => Fin.ext ?_)
    match a with
    | ⟨0, _⟩ => show win4_1.index t (0 : Fin 2) * 64 + 1 * k.val = k.val; omega
    | ⟨1, _⟩ => show win4_1.index t (1 : Fin 2) * 1 + 1 * (j 1).val = win4_3.index t (1 : Fin 2) * 1 + 1 * (j 1).val; omega
  · show (V c main_v34 : FVec Ideal S1x1 .f32) (((cfg4.win 2).blk t).view.emb (ix2 (0 : Fin 1) (n1 := 1) (j 1))) = _
    refine congrArg _ (funext fun a => Fin.ext ?_)
    match a with
    | ⟨0, _⟩ => show win4_2.index t (0 : Fin 2) * 1 + 1 * (0 : Fin 1).val = (0 : Fin 1).val; rw [a20]; rfl
    | ⟨1, _⟩ => show win4_2.index t (1 : Fin 2) * 1 + 1 * (j 1).val = win4_3.index t (1 : Fin 2) * 1 + 1 * (j 1).val; omega

/-- An entry of the output is in point t's block iff each coordinate is in the block's range on its axis. -/
theorem mem_blk (t : Fin cfg4.N) (i : S100000x1.Idx) :
    i ∈ ((cfg4.win 3).blk t).view.set ↔ ∀ a : Fin 2, win4_3.index t a * S10000x1.size a ≤ (i a).val
      ∧ (i a).val < win4_3.index t a * S10000x1.size a + S10000x1.size a := by
  show i ∈ ((View.whole main_v35).slice (win4_3.rect t)).set ↔ _
  rw [View.set_slice_whole, Rect.mem_set_unit]
  exact Iff.rfl

/-- Every entry lies in a block that is written back: node r is in block r / 10000. -/
theorem cover (i : S100000x1.Idx) :
    ∃ t : Fin cfg4.N, (cfg4.win 3).flush t = true ∧ i ∈ ((cfg4.win 3).blk t).view.set := by
  have hi0 : (i 0).val < 100000 := (i 0).isLt
  have hi1 : (i 1).val < 1 := (i 1).isLt
  have hN : (i 0).val / 10000 < cfg4.N := by show _ < grid4.N; rw [N_4]; omega
  obtain ⟨a00, a01, a10, a11, a20, a21, a30, a31⟩ := blocks ⟨(i 0).val / 10000, hN⟩
  refine ⟨⟨(i 0).val / 10000, hN⟩, flush4_3 _, ?_⟩
  rw [mem_blk]
  intro a
  match a with
  | ⟨0, _⟩ =>
    show win4_3.index ⟨(i 0).val / 10000, hN⟩ (0 : Fin 2) * 10000 ≤ (i 0).val
      ∧ (i 0).val < win4_3.index ⟨(i 0).val / 10000, hN⟩ (0 : Fin 2) * 10000 + 10000
    rw [a30]; show (i 0).val / 10000 * 10000 ≤ (i 0).val ∧ (i 0).val < (i 0).val / 10000 * 10000 + 10000; omega
  | ⟨1, _⟩ =>
    show win4_3.index ⟨(i 0).val / 10000, hN⟩ (1 : Fin 2) * 1 ≤ (i 1).val
      ∧ (i 1).val < win4_3.index ⟨(i 0).val / 10000, hN⟩ (1 : Fin 2) * 1 + 1
    rw [a31]; omega

/-- After the region the output array holds the read-out of every node. -/
theorem final (c : Dev nD) : (dat4 (F := Ideal) V c).arrAt 3 cfg4.N = readout V c :=
  (dat4 V c).arrAt_eq_of_cover 3 (readout V c) (fun t _ => flushed V c t) cover

end Cert.KernelIdeal.Regions4

end
-- ==== Proof.KernelValue.lean ====
/-
  Over the extended reals the kernel's result is the network function of its arguments.

  The buffers' contents at the eleven segment boundaries are followed from the launch memory to the return: a stretch of
  host operations writes its results as those operations of what the earlier boundary holds and leaves every other
  buffer alone; a region leaves in its output array the closed form proved for it and leaves every buffer that is not
  one of its arrays alone. Reading the chain at the buffers each step needs gives, layer by layer, the network.
-/
import proofs.«154564_j21474836480455_1_alg».proof.Proof.Gen.KernelIdeal.Frame
import proofs.«154564_j21474836480455_1_alg».proof.Proof.Network
import proofs.«154564_j21474836480455_1_alg».proof.Proof.Edge0
import proofs.«154564_j21474836480455_1_alg».proof.Proof.Relu1
import proofs.«154564_j21474836480455_1_alg».proof.Proof.Edge2
import proofs.«154564_j21474836480455_1_alg».proof.Proof.Relu3
import proofs.«154564_j21474836480455_1_alg».proof.Proof.Dense4
import Idealize.ShloMosaic.Lib.StableHlo.Run

set_option maxRecDepth 16384

noncomputable section

namespace Cert.KernelIdeal.Chain

open Cert.KernelIdeal Cert.KernelIdeal.Gen Cert.LibGraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-- A stretch of host operations leaves a buffer it does not write as it found it. -/
macro "host_keeps" ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## What region 0 is entered with -/

theorem V1_v10 (c : Dev nD) : V1 m ρ c main_v10
    = Host.gather gather_S100000x3_S1600000x1_S1600000x3_1_0_n_n_0_1_13 (m ((c : Thread nD τ).loc main_arg0))
        (Network.srcCol (m ((c : Thread nD τ).loc main_arg1))) := by
  show StableHlo.after hostOps0 (W0 m ρ c) (Proc.devRef .tc main_v10) = _
  after_results
  rfl

theorem V1_arg2 (c : Dev nD) : V1 m ρ c main_arg2 = m ((c : Thread nD τ).loc main_arg2) := by
  show StableHlo.after hostOps0 (W0 m ρ c) (Proc.devRef .tc main_arg2) = _
  after_results

theorem V1_v11 (c : Dev nD) : V1 m ρ c main_v11
    = extractStridedSlice S3x64 ![0, 0] (m ((c : Thread nD τ).loc main_arg3)) slices_S6x64_S3x64_0_0 := by
  show StableHlo.after hostOps0 (W0 m ρ c) (Proc.devRef .tc main_v11) = _
  after_results

theorem V1_v12 (c : Dev nD) : V1 m ρ c main_v12
    = extractStridedSlice S3x64 ![3, 0] (m ((c : Thread nD τ).loc main_arg3)) slices_S6x64_S3x64_3_0 := by
  show StableHlo.after hostOps0 (W0 m ρ c) (Proc.devRef .tc main_v12) = _
  after_results

theorem V1_v13 (c : Dev nD) : V1 m ρ c main_v13
    = shapeCast S1x64 (m ((c : Thread nD τ).loc main_arg4)) shapeCasts_S64_S1x64 := by
  show StableHlo.after hostOps0 (W0 m ρ c) (Proc.devRef .tc main_v13) = _
  after_results
  rfl

theorem W1_v1 (c : Dev nD) : W1 m ρ c (Proc.devRef .tc main_v1) = Network.srcOf (m ((c : Thread nD τ).loc main_arg1)) := by
  show StableHlo.after hostOps0 (W0 m ρ c) (Proc.devRef .tc main_v1) = _
  after_results
  rfl

theorem W1_v3 (c : Dev nD) : W1 m ρ c (Proc.devRef .tc main_v3) = Network.dstOf (m ((c : Thread nD τ).loc main_arg1)) := by
  show StableHlo.after hostOps0 (W0 m ρ c) (Proc.devRef .tc main_v3) = _
  after_results
  rfl

/-! ## Region 0's exit: layer 1's messages -/

theorem W2_v14 (c : Dev nD) : W2 m ρ c (Proc.devRef .tc main_v14)
    = Network.msgs1 (m ((c : Thread nD τ).loc main_arg0)) (m ((c : Thread nD τ).loc main_arg1))
        (m ((c : Thread nD τ).loc main_arg2)) (m ((c : Thread nD τ).loc main_arg3)) (m ((c : Thread nD τ).loc main_arg4)) := by
  refine (W2_arr m ρ c 5).trans ?_
  refine (Regions0.final (V1 m ρ) c).trans ?_
  show edgeMsg (E := 1600000) (A := 3) (B := 3) (N := 64) (V1 m ρ c main_v10) (V1 m ρ c main_arg2) (V1 m ρ c main_v11)
    (V1 m ρ c main_v12) (V1 m ρ c main_v13) = _
  rw [V1_v10, V1_arg2, V1_v11, V1_v12, V1_v13]
  rfl

/-! ## Region 1: the first hidden table -/

theorem W2_v3 (c : Dev nD) : W2 m ρ c (Proc.devRef .tc main_v3) = Network.dstOf (m ((c : Thread nD τ).loc main_arg1)) :=
  calc W2 m ρ c (Proc.devRef .tc main_v3)
    _ = W1 m ρ c (Proc.devRef .tc main_v3) := W2_of_ne m ρ c main_v3 (by decide)
    _ = Network.dstOf (m ((c : Thread nD τ).loc main_arg1)) := W1_v3 m ρ c

theorem V3_v17 (c : Dev nD) : V3 m ρ c main_v17
    = Network.aggregate (m ((c : Thread nD τ).loc main_arg1)) (Network.msgs1 (m ((c : Thread nD τ).loc main_arg0)) (m ((c : Thread nD τ).loc main_arg1))
        (m ((c : Thread nD τ).loc main_arg2)) (m ((c : Thread nD τ).loc main_arg3)) (m ((c : Thread nD τ).loc main_arg4))) := by
  show StableHlo.after hostOps1 (W2 m ρ c) (Proc.devRef .tc main_v17) = _
  after_results
  rw [W2_v3, W2_v14]
  rfl

theorem W4_v18 (c : Dev nD) : W4 m ρ c (Proc.devRef .tc main_v18) = Network.hidden1 (m ((c : Thread nD τ).loc main_arg0)) (m ((c : Thread nD τ).loc main_arg1))
        (m ((c : Thread nD τ).loc main_arg2)) (m ((c : Thread nD τ).loc main_arg3)) (m ((c : Thread nD τ).loc main_arg4)) := by
  refine (W4_arr m ρ c 1).trans ?_
  refine (Regions.relu1_final (V3 m ρ) c).trans ?_
  rw [V3_v17]
  rfl

/-! ## Region 2: layer 2's messages -/

theorem W4_v1 (c : Dev nD) : W4 m ρ c (Proc.devRef .tc main_v1) = Network.srcOf (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by host_keeps hostOps1
    _ = W1 m ρ c (Proc.devRef .tc main_v1) := W2_of_ne m ρ c main_v1 (by decide)
    _ = Network.srcOf (m ((c : Thread nD τ).loc main_arg1)) := W1_v1 m ρ c

theorem W4_arg5 (c : Dev nD) : W4 m ρ c (Proc.devRef .tc main_arg5) = (m ((c : Thread nD τ).loc main_arg5)) :=
  calc W4 m ρ c (Proc.devRef .tc main_arg5)
    _ = W3 m ρ c (Proc.devRef .tc main_arg5) := W4_of_ne m ρ c main_arg5 (by decide)
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = (m ((c : Thread nD τ).loc main_arg5)) := rfl

theorem W4_arg6 (c : Dev nD) : W4 m ρ c (Proc.devRef .tc main_arg6) = (m ((c : Thread nD τ).loc main_arg6)) :=
  calc W4 m ρ c (Proc.devRef .tc main_arg6)
    _ = W3 m ρ c (Proc.devRef .tc main_arg6) := W4_of_ne m ρ c main_arg6 (by decide)
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = (m ((c : Thread nD τ).loc main_arg6)) := rfl

theorem W5_arg2 (c : Dev nD) : W5 m ρ c (Proc.devRef .tc main_arg2) = (m ((c : Thread nD τ).loc main_arg2)) :=
  calc W5 m ρ c (Proc.devRef .tc main_arg2)
    _ = W4 m ρ c (Proc.devRef .tc main_arg2) := by host_keeps hostOps2
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) :=
          (W2_arr m ρ c 1).trans (((dat0 (V1 m ρ) c).arrAt_in 1 rfl _).trans (A_eq0 (V1 m ρ) c 1))
    _ = W0 m ρ c (Proc.devRef .tc main_arg2) := by host_keeps hostOps0
    _ = (m ((c : Thread nD τ).loc main_arg2)) := rfl

theorem V5_v25 (c : Dev nD) : V5 m ρ c main_v25
    = Host.gather gather_S100000x64_S1600000x1_S1600000x64_1_0_n_n_0_1_164 (Network.hidden1 (m ((c : Thread nD τ).loc main_arg0)) (m ((c : Thread nD τ).loc main_arg1))
        (m ((c : Thread nD τ).loc main_arg2)) (m ((c : Thread nD τ).loc main_arg3)) (m ((c : Thread nD τ).loc main_arg4)))
        (Network.srcCol (m ((c : Thread nD τ).loc main_arg1))) := by
  show StableHlo.after hostOps2 (W4 m ρ c) (Proc.devRef .tc main_v25) = _
  after_results
  rw [W4_v18, W4_v1]
  rfl

theorem V5_v26 (c : Dev nD) : V5 m ρ c main_v26
    = extractStridedSlice S64x64 ![0, 0] (m ((c : Thread nD τ).loc main_arg5)) slices_S67x64_S64x64_0_0 := by
  show StableHlo.after hostOps2 (W4 m ρ c) (Proc.devRef .tc main_v26) = _
  after_results
  rw [W4_arg5]

theorem V5_v27 (c : Dev nD) : V5 m ρ c main_v27
    = extractStridedSlice S3x64 ![64, 0] (m ((c : Thread nD τ).loc main_arg5)) slices_S67x64_S3x64_64_0 := by
  show StableHlo.after hostOps2 (W4 m ρ c) (Proc.devRef .tc main_v27) = _
  after_results
  rw [W4_arg5]

theorem V5_v28 (c : Dev nD) : V5 m ρ c main_v28
    = shapeCast S1x64 (m ((c : Thread nD τ).loc main_arg6)) shapeCasts_S64_S1x64 := by
  show StableHlo.after hostOps2 (W4 m ρ c) (Proc.devRef .tc main_v28) = _
  after_results
  rw [W4_arg6]
  rfl

theorem W6_v29 (c : Dev nD) : W6 m ρ c (Proc.devRef .tc main_v29)
    = Network.msgs2 (Network.hidden1 (m ((c : Thread nD τ).loc main_arg0)) (m ((c : Thread nD τ).loc main_arg1))
        (m ((c : Thread nD τ).loc main_arg2)) (m ((c : Thread nD τ).loc main_arg3)) (m ((c : Thread nD τ).loc main_arg4))) (m ((c : Thread nD τ).loc main_arg1))
        (m ((c : Thread nD τ).loc main_arg2)) (m ((c : Thread nD τ).loc main_arg5)) (m ((c : Thread nD τ).loc main_arg6)) := by
  refine (W6_arr m ρ c 5).trans ?_
  refine (Regions2.final (V5 m ρ) c).trans ?_
  show edgeMsg (E := 1600000) (A := 64) (B := 3) (N := 64) (V5 m ρ c main_v25) (V5 m ρ c main_arg2) (V5 m ρ c main_v26)
    (V5 m ρ c main_v27) (V5 m ρ c main_v28) = _
  rw [V5_v25, show V5 m ρ c main_arg2 = _ from W5_arg2 m ρ c, V5_v26, V5_v27, V5_v28]
  rfl

/-! ## Region 3: the second hidden table -/

theorem W6_v3 (c : Dev nD) : W6 m ρ c (Proc.devRef .tc main_v3) = Network.dstOf (m ((c : Thread nD τ).loc main_arg1)) :=
  calc W6 m ρ c (Proc.devRef .tc main_v3)
    _ = W5 m ρ c (Proc.devRef .tc main_v3) := W6_of_ne m ρ c main_v3 (by decide)
    _ = W4 m ρ c (Proc.devRef .tc main_v3) := by host_keeps hostOps2
    _ = W3 m ρ c (Proc.devRef .tc main_v3) := W4_of_ne m ρ c main_v3 (by decide)
    _ = W2 m ρ c (Proc.devRef .tc main_v3) := by host_keeps hostOps1
    _ = W1 m ρ c (Proc.devRef .tc main_v3) := W2_of_ne m ρ c main_v3 (by decide)
    _ = Network.dstOf (m ((c : Thread nD τ).loc main_arg1)) := W1_v3 m ρ c

theorem V7_v32 (c : Dev nD) : V7 m ρ c main_v32
    = Network.aggregate (m ((c : Thread nD τ).loc main_arg1)) (Network.msgs2 (Network.hidden1 (m ((c : Thread nD τ).loc main_arg0)) (m ((c : Thread nD τ).loc main_arg1))
        (m ((c : Thread nD τ).loc main_arg2)) (m ((c : Thread nD τ).loc main_arg3)) (m ((c : Thread nD τ).loc main_arg4))) (m ((c : Thread nD τ).loc main_arg1))
        (m ((c : Thread nD τ).loc main_arg2)) (m ((c : Thread nD τ).loc main_arg5)) (m ((c : Thread nD τ).loc main_arg6))) := by
  show StableHlo.after hostOps3 (W6 m ρ c) (Proc.devRef .tc main_v32) = _
  after_results
  rw [W6_v3, W6_v29]
  rfl

theorem W8_v33 (c : Dev nD) : W8 m ρ c (Proc.devRef .tc main_v33) = Network.hidden2 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (W8_arr m ρ c 1).trans ?_
  refine (Regions3.relu3_final (V7 m ρ) c).trans ?_
  rw [V7_v32]
  rfl

/-! ## Region 4: the read-out -/

theorem W8_arg8 (c : Dev nD) : W8 m ρ c (Proc.devRef .tc main_arg8) = (m ((c : Thread nD τ).loc main_arg8)) :=
  calc W8 m ρ c (Proc.devRef .tc main_arg8)
    _ = W7 m ρ c (Proc.devRef .tc main_arg8) := W8_of_ne m ρ c main_arg8 (by decide)
    _ = W6 m ρ c (Proc.devRef .tc main_arg8) := by host_keeps hostOps3
    _ = W5 m ρ c (Proc.devRef .tc main_arg8) := W6_of_ne m ρ c main_arg8 (by decide)
    _ = W4 m ρ c (Proc.devRef .tc main_arg8) := by host_keeps hostOps2
    _ = W3 m ρ c (Proc.devRef .tc main_arg8) := W4_of_ne m ρ c main_arg8 (by decide)
    _ = W2 m ρ c (Proc.devRef .tc main_arg8) := by host_keeps hostOps1
    _ = W1 m ρ c (Proc.devRef .tc main_arg8) := W2_of_ne m ρ c main_arg8 (by decide)
    _ = W0 m ρ c (Proc.devRef .tc main_arg8) := by host_keeps hostOps0
    _ = (m ((c : Thread nD τ).loc main_arg8)) := rfl

theorem W9_arg7 (c : Dev nD) : W9 m ρ c (Proc.devRef .tc main_arg7) = (m ((c : Thread nD τ).loc main_arg7)) :=
  calc W9 m ρ c (Proc.devRef .tc main_arg7)
    _ = W8 m ρ c (Proc.devRef .tc main_arg7) := by host_keeps hostOps4
    _ = W7 m ρ c (Proc.devRef .tc main_arg7) := W8_of_ne m ρ c main_arg7 (by decide)
    _ = W6 m ρ c (Proc.devRef .tc main_arg7) := by host_keeps hostOps3
    _ = W5 m ρ c (Proc.devRef .tc main_arg7) := W6_of_ne m ρ c main_arg7 (by decide)
    _ = W4 m ρ c (Proc.devRef .tc main_arg7) := by host_keeps hostOps2
    _ = W3 m ρ c (Proc.devRef .tc main_arg7) := W4_of_ne m ρ c main_arg7 (by decide)
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = (m ((c : Thread nD τ).loc main_arg7)) := rfl

theorem W9_v33 (c : Dev nD) : W9 m ρ c (Proc.devRef .tc main_v33) = Network.hidden2 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) :=
  calc W9 m ρ c (Proc.devRef .tc main_v33)
    _ = W8 m ρ c (Proc.devRef .tc main_v33) := by host_keeps hostOps4
    _ = Network.hidden2 (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := W8_v33 m ρ c

theorem V9_v34 (c : Dev nD) : V9 m ρ c main_v34
    = shapeCast S1x1 (m ((c : Thread nD τ).loc main_arg8)) shapeCasts_S1_S1x1 := by
  show StableHlo.after hostOps4 (W8 m ρ c) (Proc.devRef .tc main_v34) = _
  after_results
  rw [W8_arg8]
  rfl

/-- The result buffer at the last boundary holds the network's output of the launch contents of the nine arguments. -/
theorem result (c : Dev nD) : W10 m ρ c (Proc.devRef .tc main_v35)
    = Network.out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6))
        (m ((c : Thread nD τ).loc main_arg7)) (m ((c : Thread nD τ).loc main_arg8)) := by
  refine (W10_arr m ρ c 3).trans ?_
  refine (Regions4.final (V9 m ρ) c).trans ?_
  show denseOut (E := 100000) (A := 64) (N := 1) (V9 m ρ c main_v33) (V9 m ρ c main_arg7) (V9 m ρ c main_v34) = _
  rw [show V9 m ρ c main_v33 = _ from W9_v33 m ρ c, show V9 m ρ c main_arg7 = _ from W9_arg7 m ρ c, V9_v34]
  rfl

end Cert.KernelIdeal.Chain

end
-- ==== Proof.LibHostPlainDot.lean ====
/-
  A host matrix product, read at one entry, over the extended reals.

  For any extents M, K, N: the host's `dot_general` of an M×K matrix and a K×N matrix with the plain dimension numbers
  (the left operand's axis 1 contracted with the right operand's axis 0, no batch axes) is, at entry (p, n), the sum
  over k of left(p, k) · right(k, n) — the same sum a matrix product into a zero accumulator gives. Stated for any
  dimension-numbers record equal to the plain one, since a printed program names its own record.
-/
import proofs.«154564_j21474836480455_1_alg».proof.Proof.LibPlainMatmul
import Idealize.ShloMosaic.Lib.ValueIdx
import Idealize.ShloMosaic.PureOps.Ideal.Laws

namespace Cert.LibHostPlainDot

open Idealize.ShloMosaic Idealize.ShloMosaic.ValueIdx Cert.LibPlainMatmul

/-- A host product with the plain dimension numbers, at entry `(p, n)`: `∑ k, l (p, k) * r (k, n)`. -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (p : Fin M) (n : Fin N) :
    Host.dotGeneral (F := Ideal) D prec l r (ix2 p n) = ∑ k : Fin K, l (ix2 p k) * r (ix2 k n) := by
  subst hD
  show FloatOps.dotGeneral _ _ _ _ _ _ = _
  rw [Ideal.dotGeneral_apply, ← Equiv.sum_comp (contrEquiv1 (DotDims.plain M K N) K rfl rfl).symm]
  refine Finset.sum_congr rfl fun k _ => ?_
  rw [plain_lhsIdx, plain_rhsIdx]

end Cert.LibHostPlainDot
-- ==== Proof.LibGraphConvHost.lean ====
/-
  The host spelling of a graph-convolution layer is the layer, over the extended reals, for any extents.

  The host joins the gathered features (A channels) and the edge attributes (B channels) along the channel axis into
  one E×(A+B) matrix, multiplies by the whole (A+B)×N weight and adds the bias vector broadcast to every row. A sum
  over the A+B joined channels is the sum over the first A plus the sum over the last B — addition on the extended
  reals is commutative and associative, nothing needs to be finite —, the first A joined channels are the features and
  meet weight rows 0..A-1 (the weight's leading row block), the last B are the attributes and meet rows A..A+B-1 (its
  trailing row block), and the bias vector read as a 1×N row is the same vector. So the host's result is `edgeMsg` of
  the two row blocks; the read-out (one product plus the bias) is `denseOut`.
-/
import proofs.«154564_j21474836480455_1_alg».proof.Proof.LibGraphConv
import proofs.«154564_j21474836480455_1_alg».proof.Proof.LibHostPlainDot
import Idealize.ShloMosaic.Lib.ValueIdx
import Idealize.ShloMosaic.Lib.Pipeline.Value
import Idealize.ShloMosaic.PureOps.Ideal.Laws

noncomputable section

namespace Cert.LibGraphConv

open Idealize.ShloMosaic Idealize.ShloMosaic.ValueIdx Cert.LibHostPlainDot

/-- The bias vector broadcast to a 1×N row and then down E rows, read at `(p, n)`: the vector's entry `n`. -/
theorem biasRows_apply {E N : ℕ} {α : Type} (b : (⟨1, ![N]⟩ : Shape).Idx → α)
    (hb1 : (⟨1, ![N]⟩ : Shape).BroadcastsInDim ⟨2, ![1, N]⟩ ![1])
    (hb2 : (⟨2, ![1, N]⟩ : Shape).BroadcastsInDim ⟨2, ![E, N]⟩ ![0, 1]) (p : Fin E) (n : Fin N) :
    broadcastInDim ⟨2, ![E, N]⟩ ![0, 1] hb2 (broadcastInDim ⟨2, ![1, N]⟩ ![1] hb1 b) (ix2 p n) = b (ix1 n) := by
  refine (broadcastInDim_apply ![0, 1] hb2 _ (ix2 p n) (ix2 0 n) fun a => ?_).trans ?_
  · match a with
    | ⟨0, _⟩ => rfl
    | ⟨1, _⟩ =>
      show n.val = if N = 1 then 0 else n.val
      split
      · rename_i h1; have := n.isLt; omega
      · rfl
  · refine broadcastInDim_apply ![1] hb1 b (ix2 0 n) (ix1 n) fun a => ?_
    match a with
    | ⟨0, _⟩ =>
      show n.val = if N = 1 then 0 else n.val
      split
      · rename_i h1; have := n.isLt; omega
      · rfl

/-- The bias vector reshaped to a 1×N row, read at `(0, n)`: the vector's entry `n`. -/
theorem biasRow_apply {N : ℕ} {α : Type} (b : (⟨1, ![N]⟩ : Shape).Idx → α)
    (hsc : (⟨1, ![N]⟩ : Shape).ShapeCasts ⟨2, ![1, N]⟩) (n : Fin N) :
    shapeCast ⟨2, ![1, N]⟩ b hsc (ix2 0 n) = b (ix1 n) := by
  refine shapeCast_apply b hsc (ix2 0 n) (ix1 n) ?_
  rw [Shape.rowMajor_val_one, Shape.rowMajor_val_two]
  show n.val = (0 : Fin 1).val * _ + n.val
  simp

/-- The host's layer — join along the channel axis, one product with the whole weight, bias broadcast to every row —
    is the message of the weight's two row blocks and the bias as a row. -/
theorem edge_host_eq {E A B C N : ℕ} (hC : A + B = C)
    (D : DotDims ⟨2, ![E, C]⟩ ⟨2, ![C, N]⟩ ⟨2, ![E, N]⟩) (hD : D = DotDims.plain E C N)
    (h : FVec Ideal ⟨2, ![E, A]⟩ .f32) (e : FVec Ideal ⟨2, ![E, B]⟩ .f32) (W : FVec Ideal ⟨2, ![C, N]⟩ .f32)
    (b : FVec Ideal ⟨1, ![N]⟩ .f32)
    (hc : Shape.Concatenates [(⟨2, ![E, A]⟩ : Shape), ⟨2, ![E, B]⟩] ⟨2, ![E, C]⟩ 1)
    (hb1 : (⟨1, ![N]⟩ : Shape).BroadcastsInDim ⟨2, ![1, N]⟩ ![1])
    (hb2 : (⟨2, ![1, N]⟩ : Shape).BroadcastsInDim ⟨2, ![E, N]⟩ ![0, 1])
    (hs1 : (⟨2, ![C, N]⟩ : Shape).Slices ![0, 0] ⟨2, ![A, N]⟩)
    (hs2 : (⟨2, ![C, N]⟩ : Shape).Slices ![A, 0] ⟨2, ![B, N]⟩)
    (hsc : (⟨1, ![N]⟩ : Shape).ShapeCasts ⟨2, ![1, N]⟩) :
    addf (Host.dotGeneral (F := Ideal) D none
            (concatenate ⟨2, ![E, C]⟩ 1 [⟨⟨2, ![E, A]⟩, h⟩, ⟨⟨2, ![E, B]⟩, e⟩] hc) W)
         (broadcastInDim ⟨2, ![E, N]⟩ ![0, 1] hb2 (broadcastInDim ⟨2, ![1, N]⟩ ![1] hb1 b))
      = edgeMsg h e (extractStridedSlice ⟨2, ![A, N]⟩ ![0, 0] W hs1) (extractStridedSlice ⟨2, ![B, N]⟩ ![A, 0] W hs2)
          (shapeCast ⟨2, ![1, N]⟩ b hsc) := by
  subst hC
  funext j
  obtain ⟨p, n, rfl⟩ : ∃ (p : Fin E) (n : Fin N), j = ix2 p n := ⟨j 0, j 1, eq_ix2 j⟩
  rw [addf_apply, dotGeneral_plain_apply D hD, biasRows_apply, edgeMsg_apply, biasRow_apply, Fin.sum_univ_add]
  congr 1
  congr 1
  · refine Finset.sum_congr rfl fun k _ => ?_
    congr 1
    · refine concatenate_pair_apply_left (1 : Fin 2) h e hc (ix2 p (Fin.castAdd B k)) rfl (ix2 p k) fun b => ?_
      match b with
      | ⟨0, _⟩ => rfl
      | ⟨1, _⟩ => rfl
    · refine (extractStridedSlice_apply ![0, 0] W hs1 (ix2 k n) (ix2 (Fin.castAdd B k) n) fun a => ?_).symm
      match a with
      | ⟨0, _⟩ => show k.val = 0 + k.val; omega
      | ⟨1, _⟩ => show n.val = 0 + n.val; omega
  · refine Finset.sum_congr rfl fun k _ => ?_
    congr 1
    · refine concatenate_pair_apply_right (1 : Fin 2) h e hc (ix2 p (Fin.natAdd A k)) rfl rfl (ix2 p k)
        (fun b hb => ?_) ?_
      · match b, hb with
        | ⟨0, _⟩, _ => rfl
        | ⟨1, _⟩, hb => exact absurd rfl hb
      · show k.val + A = A + k.val; omega
    · refine (extractStridedSlice_apply ![A, 0] W hs2 (ix2 k n) (ix2 (Fin.natAdd A k) n) fun a => ?_).symm
      match a with
      | ⟨0, _⟩ => show A + k.val = A + k.val; rfl
      | ⟨1, _⟩ => show n.val = 0 + n.val; omega

/-- The host's read-out — one product with the weight, bias broadcast to every row — is the dense read-out with the
    bias as a row. -/
theorem dense_host_eq {E A N : ℕ}
    (D : DotDims ⟨2, ![E, A]⟩ ⟨2, ![A, N]⟩ ⟨2, ![E, N]⟩) (hD : D = DotDims.plain E A N)
    (h : FVec Ideal ⟨2, ![E, A]⟩ .f32) (W : FVec Ideal ⟨2, ![A, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![E, N]⟩ ![0, 1])
    (hsc : (⟨1, ![N]⟩ : Shape).ShapeCasts ⟨2, ![1, N]⟩) :
    addf (Host.dotGeneral (F := Ideal) D none h W)
         (broadcastInDim ⟨2, ![E, N]⟩ ![0, 1] hb2 (broadcastInDim ⟨2, ![1, N]⟩ ![1] hb1 b))
      = denseOut h W (shapeCast ⟨2, ![1, N]⟩ b hsc) := by
  funext j
  obtain ⟨p, n, rfl⟩ : ∃ (p : Fin E) (n : Fin N), j = ix2 p n := ⟨j 0, j 1, eq_ix2 j⟩
  rw [addf_apply, dotGeneral_plain_apply D hD, biasRows_apply, denseOut_apply, biasRow_apply]

end Cert.LibGraphConv

end
-- ==== Proof.RefNetwork.lean ====
/-
  The reference program's result is the two-layer edge-conditioned graph network of its nine argument arrays, over the
  extended reals.

  The reference computes each layer as one matrix product: it joins the gathered source-node features and the edge
  attributes along the channel axis, multiplies by the whole weight and adds the bias vector broadcast to every row;
  it then adds the messages up at each edge's target node, starting from the zero table, and takes the entrywise
  maximum with zero. A product with the joined matrix is the sum of the two products with the weight's leading and
  trailing row blocks, and the broadcast bias vector is the bias read as a row, so each layer's messages are the
  network's messages; the index columns, the zero table and the gather and scatter dimension numbers of the two
  spellings are the same terms. The read-out is one product plus the broadcast bias.
-/
import proofs.«154564_j21474836480455_1_alg».proof.Proof.Gen.ReferenceIdeal.Read
import proofs.«154564_j21474836480455_1_alg».proof.Proof.Network
import proofs.«154564_j21474836480455_1_alg».proof.Proof.LibGraphConvHost

noncomputable section

namespace Cert.ReferenceIdeal.RefValue

open Idealize.ShloMosaic Cert.LibGraphConv Cert.ReferenceIdeal Cert.ReferenceIdeal.Gen Cert.ReferenceIdeal.Read

/-! ## The two spellings' dimension numbers, index columns and zero table are the same terms -/

/-- Layer 1's gather dimension numbers. -/
theorem gather1_eq :
    Cert.ReferenceIdeal.gather_S100000x3_S1600000x1_S1600000x3_1_0_n_n_0_1_13
      = Cert.KernelIdeal.gather_S100000x3_S1600000x1_S1600000x3_1_0_n_n_0_1_13 := rfl

/-- Layer 2's gather dimension numbers. -/
theorem gather2_eq :
    Cert.ReferenceIdeal.gather_S100000x64_S1600000x1_S1600000x64_1_0_n_n_0_1_164
      = Cert.KernelIdeal.gather_S100000x64_S1600000x1_S1600000x64_1_0_n_n_0_1_164 := rfl

/-- The scatter dimension numbers. -/
theorem scatter_eq :
    Cert.ReferenceIdeal.scatter_S100000x64_S1600000x1_S1600000x64_1_0_0_1
      = Cert.KernelIdeal.scatter_S100000x64_S1600000x1_S1600000x64_1_0_0_1 := rfl

/-- Layer 1's source-index column. -/
theorem srcCol1_eq (x1 : (⟨S2x1600000, .i32⟩ : BufTy).Contents (Elt Ideal)) : val_main_v9 (F := Ideal) x1 = Cert.KernelIdeal.Network.srcCol x1 := rfl

/-- Layer 2's source-index column. -/
theorem srcCol2_eq (x1 : (⟨S2x1600000, .i32⟩ : BufTy).Contents (Elt Ideal)) : val_main_v25 (F := Ideal) x1 = Cert.KernelIdeal.Network.srcCol x1 := rfl

/-- Layer 1's target-index column. -/
theorem dstCol1_eq (x1 : (⟨S2x1600000, .i32⟩ : BufTy).Contents (Elt Ideal)) : val_main_v17 (F := Ideal) x1 = Cert.KernelIdeal.Network.dstCol x1 := rfl

/-- Layer 2's target-index column. -/
theorem dstCol2_eq (x1 : (⟨S2x1600000, .i32⟩ : BufTy).Contents (Elt Ideal)) : val_main_v33 (F := Ideal) x1 = Cert.KernelIdeal.Network.dstCol x1 := rfl

/-- The zero tables the sums start from and the maxima compare with. -/
theorem zero16_eq : val_main_v16 (F := Ideal) = Cert.KernelIdeal.Network.zeroTable := rfl
theorem zero32_eq : val_main_v32 (F := Ideal) = Cert.KernelIdeal.Network.zeroTable := rfl
theorem zeroCall0_eq : val_main_call0_v0 (F := Ideal) = Cert.KernelIdeal.Network.zeroTable := rfl
theorem zeroCall1_eq : val_main_call1_v0 (F := Ideal) = Cert.KernelIdeal.Network.zeroTable := rfl

/-! ## Layer by layer -/

/-- Layer 1's messages. -/
theorem v15_eq (x0 : (⟨S100000x3, .f32⟩ : BufTy).Contents (Elt Ideal)) (x1 : (⟨S2x1600000, .i32⟩ : BufTy).Contents (Elt Ideal)) (x2 : (⟨S1600000x3, .f32⟩ : BufTy).Contents (Elt Ideal)) (x3 : (⟨S6x64, .f32⟩ : BufTy).Contents (Elt Ideal)) (x4 : (⟨S64, .f32⟩ : BufTy).Contents (Elt Ideal)) :
    val_main_v15 (F := Ideal) x0 x1 x2 x3 x4 = Cert.KernelIdeal.Network.msgs1 x0 x1 x2 x3 x4 := by
  unfold val_main_v15 val_main_v14 val_main_v13 val_main_v12 val_main_v11 val_main_v10 Cert.KernelIdeal.Network.msgs1
  rw [srcCol1_eq, gather1_eq]
  exact edge_host_eq (E := 1600000) (A := 3) (B := 3) (C := 6) (N := 64) rfl
    dot_S1600000x6_S6x64_S1600000x64_1_0_0_1_n_n rfl
    (Host.gather Cert.KernelIdeal.gather_S100000x3_S1600000x1_S1600000x3_1_0_n_n_0_1_13 x0 (Cert.KernelIdeal.Network.srcCol x1)) x2 x3 x4
    concatenates_S1600000x3_S1600000x3_S1600000x6_d1 bcast_S64_S1x64_1 bcast_S1x64_S1600000x64_0_1
    Cert.KernelIdeal.Gen.slices_S6x64_S3x64_0_0 Cert.KernelIdeal.Gen.slices_S6x64_S3x64_3_0 Cert.KernelIdeal.Gen.shapeCasts_S64_S1x64

/-- The hidden features after layer 1. -/
theorem v19_eq (x0 : (⟨S100000x3, .f32⟩ : BufTy).Contents (Elt Ideal)) (x1 : (⟨S2x1600000, .i32⟩ : BufTy).Contents (Elt Ideal)) (x2 : (⟨S1600000x3, .f32⟩ : BufTy).Contents (Elt Ideal)) (x3 : (⟨S6x64, .f32⟩ : BufTy).Contents (Elt Ideal)) (x4 : (⟨S64, .f32⟩ : BufTy).Contents (Elt Ideal)) :
    val_main_v19 (F := Ideal) x0 x1 x2 x3 x4 = Cert.KernelIdeal.Network.hidden1 x0 x1 x2 x3 x4 := by
  unfold val_main_v19 val_main_v18
  rw [v15_eq, zero16_eq, dstCol1_eq, zeroCall0_eq, scatter_eq]
  rfl

/-- Layer 2's messages. -/
theorem v31_eq (x0 : (⟨S100000x3, .f32⟩ : BufTy).Contents (Elt Ideal)) (x1 : (⟨S2x1600000, .i32⟩ : BufTy).Contents (Elt Ideal)) (x2 : (⟨S1600000x3, .f32⟩ : BufTy).Contents (Elt Ideal)) (x3 : (⟨S6x64, .f32⟩ : BufTy).Contents (Elt Ideal)) (x4 : (⟨S64, .f32⟩ : BufTy).Contents (Elt Ideal)) (x5 : (⟨S67x64, .f32⟩ : BufTy).Contents (Elt Ideal)) (x6 : (⟨S64, .f32⟩ : BufTy).Contents (Elt Ideal)) :
    val_main_v31 (F := Ideal) x0 x1 x2 x3 x4 x5 x6 = Cert.KernelIdeal.Network.msgs2 (Cert.KernelIdeal.Network.hidden1 x0 x1 x2 x3 x4) x1 x2 x5 x6 := by
  unfold val_main_v31 val_main_v30 val_main_v29 val_main_v28 val_main_v27 val_main_v26 Cert.KernelIdeal.Network.msgs2
  rw [v19_eq, srcCol2_eq, gather2_eq]
  exact edge_host_eq (E := 1600000) (A := 64) (B := 3) (C := 67) (N := 64) rfl
    dot_S1600000x67_S67x64_S1600000x64_1_0_0_1_n_n rfl
    (Host.gather Cert.KernelIdeal.gather_S100000x64_S1600000x1_S1600000x64_1_0_n_n_0_1_164 (Cert.KernelIdeal.Network.hidden1 x0 x1 x2 x3 x4) (Cert.KernelIdeal.Network.srcCol x1)) x2 x5 x6
    concatenates_S1600000x64_S1600000x3_S1600000x67_d1 bcast_S64_S1x64_1 bcast_S1x64_S1600000x64_0_1
    Cert.KernelIdeal.Gen.slices_S67x64_S64x64_0_0 Cert.KernelIdeal.Gen.slices_S67x64_S3x64_64_0 Cert.KernelIdeal.Gen.shapeCasts_S64_S1x64

/-- The hidden features after layer 2. -/
theorem v35_eq (x0 : (⟨S100000x3, .f32⟩ : BufTy).Contents (Elt Ideal)) (x1 : (⟨S2x1600000, .i32⟩ : BufTy).Contents (Elt Ideal)) (x2 : (⟨S1600000x3, .f32⟩ : BufTy).Contents (Elt Ideal)) (x3 : (⟨S6x64, .f32⟩ : BufTy).Contents (Elt Ideal)) (x4 : (⟨S64, .f32⟩ : BufTy).Contents (Elt Ideal)) (x5 : (⟨S67x64, .f32⟩ : BufTy).Contents (Elt Ideal)) (x6 : (⟨S64, .f32⟩ : BufTy).Contents (Elt Ideal)) :
    val_main_v35 (F := Ideal) x0 x1 x2 x3 x4 x5 x6 = Cert.KernelIdeal.Network.hidden2 x0 x1 x2 x3 x4 x5 x6 := by
  unfold val_main_v35 val_main_v34
  rw [v31_eq, zero32_eq, dstCol2_eq, zeroCall1_eq, scatter_eq]
  rfl

/-- The reference's result is the network's output. -/
theorem ref_eq_network (x0 : (⟨S100000x3, .f32⟩ : BufTy).Contents (Elt Ideal)) (x1 : (⟨S2x1600000, .i32⟩ : BufTy).Contents (Elt Ideal)) (x2 : (⟨S1600000x3, .f32⟩ : BufTy).Contents (Elt Ideal)) (x3 : (⟨S6x64, .f32⟩ : BufTy).Contents (Elt Ideal)) (x4 : (⟨S64, .f32⟩ : BufTy).Contents (Elt Ideal)) (x5 : (⟨S67x64, .f32⟩ : BufTy).Contents (Elt Ideal)) (x6 : (⟨S64, .f32⟩ : BufTy).Contents (Elt Ideal)) (x7 : (⟨S64x1, .f32⟩ : BufTy).Contents (Elt Ideal)) (x8 : (⟨S1, .f32⟩ : BufTy).Contents (Elt Ideal)) :
    Cert.ReferenceIdeal.Read.val_main_v39 (F := Ideal) x0 x1 x2 x3 x4 x5 x6 x7 x8
      = Cert.KernelIdeal.Network.out x0 x1 x2 x3 x4 x5 x6 x7 x8 := by
  unfold val_main_v39 val_main_v38 val_main_v37 val_main_v36 Cert.KernelIdeal.Network.out
  rw [v35_eq]
  exact dense_host_eq (E := 100000) (A := 64) (N := 1)
    dot_S100000x64_S64x1_S100000x1_1_0_0_1_n_n rfl (Cert.KernelIdeal.Network.hidden2 x0 x1 x2 x3 x4 x5 x6) x7 x8
    bcast_S1_S1x1_1 bcast_S1x1_S100000x1_0_1 Cert.KernelIdeal.Gen.shapeCasts_S1_S1x1

end Cert.ReferenceIdeal.RefValue

end
-- ==== Proof.lean ====
/-
  The certificate of a two-layer edge-conditioned graph network: the tiled kernel against its plain reference.

  Both programs take node features x (100000×3), an edge list (2×1600000), edge attributes (1600000×3) and the weights
  and biases of two message layers and a read-out. Each layer gathers every edge's source-node features, forms the
  message  features·W[top rows] + attributes·W[bottom rows] + b, adds the messages up at the edge's target node and
  rectifies; the read-out is hidden·W3 + b3.

  The kernel computes a layer's messages in a region that walks the edges in blocks of 6400, as two matrix products
  (operands rounded to a narrower format first) with the two row blocks of the weight; the reference joins features and
  attributes into one matrix and multiplies by the whole weight. Over the extended reals rounding is the identity and
  a sum over the joined channels is the sum over the first block plus the sum over the second — addition is
  commutative and associative there with no finiteness asked — so the two agree entry by entry; the gathers, the
  scatter-additions from the zero table and the rectifications are the same operations in both. Hence both results
  are ONE function of the nine argument arrays (`Network.out`), and the precondition is never used.

  The three frames: the two kernels' are the generated frame certificates; the reference has no kernel, its frame is
  its run with the result dropped. Reading the kernel over the extended reals rewrote none of its operations, so there is nothing to preserve.
-/
import proofs.«154564_j21474836480455_1_alg».proof.Defs
import proofs.«154564_j21474836480455_1_alg».proof.Proof.Gen.Kernel
import proofs.«154564_j21474836480455_1_alg».proof.Proof.Gen.Kernel.Frame
import proofs.«154564_j21474836480455_1_alg».proof.Proof.Gen.KernelIdeal
import proofs.«154564_j21474836480455_1_alg».proof.Proof.Gen.KernelIdeal.Frame
import proofs.«154564_j21474836480455_1_alg».proof.Proof.Gen.ReferenceIdeal
import proofs.«154564_j21474836480455_1_alg».proof.Proof.Gen.ReferenceIdeal.Run
import proofs.«154564_j21474836480455_1_alg».proof.Proof.Gen.ReferenceIdeal.Read
import proofs.«154564_j21474836480455_1_alg».proof.Proof.Gen.Pre_finite_inputs
import proofs.«154564_j21474836480455_1_alg».proof.Proof.KernelRun
import proofs.«154564_j21474836480455_1_alg».proof.Proof.KernelValue
import proofs.«154564_j21474836480455_1_alg».proof.Proof.RefNetwork
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- The kernel read over the extended reals runs and leaves its arguments as launched. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the nine arguments both programs, read over the extended reals, end with the network's output of those
    arguments in their result buffer: the kernel by its chain of boundary contents, the reference by its run read as
    the same function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Network.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8⟩ := hagree c
    rw [(h c).1, Cert.ReferenceIdeal.Read.val_main_v39_eq, Cert.ReferenceIdeal.RefValue.ref_eq_network,
      a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
